-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2000x512 : Shape := ⟨3, ![16, 2000, 512]⟩
abbrev S41x5632 : Shape := ⟨2, ![41, 5632]⟩
abbrev S41 : Shape := ⟨1, ![41]⟩
abbrev S_ : Shape := ⟨0, ![]⟩

class Facts : Prop where
  bcast_S_S16x2000x512 : S_.BroadcastsInDim S16x2000x512 (![] : Fin 0 → Fin S16x2000x512.rank)
  reducesTo_S16x2000x512_S_d0_1_2 : S16x2000x512.ReducesTo [0, 1, 2] S_
  h_S_ : 0 < S_.numel
  bcast_S_S41x5632 : S_.BroadcastsInDim S41x5632 (![] : Fin 0 → Fin S41x5632.rank)
  reducesTo_S41x5632_S_d0_1 : S41x5632.ReducesTo [0, 1] S_
  bcast_S_S41 : S_.BroadcastsInDim S41 (![] : Fin 0 → Fin S41.rank)
  reducesTo_S41_S_d0 : S41.ReducesTo [0] S_

variable [Facts]

def fn {F : FTy → Type} [FloatOps F] (main_arg0 : FVec F S16x2000x512 .f32) (main_arg1 : FVec F S41x5632 .f32) (main_arg2 : FVec F S41 .f32) : IVec S_ 1 :=
  let main_v0 : FVec F S16x2000x512 .f32 := Host.absf main_arg0
  let main_cst : FVec F S_ .f32 := constant S_ .f32 0x7F800000#32
  let main_v1 : FVec F S16x2000x512 .f32 := broadcastInDim S16x2000x512 ![] bcast_S_S16x2000x512 main_cst
  let main_v2 : IVec S16x2000x512 1 := cmpf .olt main_v0 main_v1
  let main_c : IVec S_ 1 := constantI S_ 1 1#1
  let main_v3 : IVec S_ 1 := (fun x v => Host.reduce IntOp.andi x v reducesTo_S16x2000x512_S_d0_1_2 h_S_) main_v2 main_c
  let main_v4 : FVec F S41x5632 .f32 := Host.absf main_arg1
  let main_cst_0 : FVec F S_ .f32 := constant S_ .f32 0x7F800000#32
  let main_v5 : FVec F S41x5632 .f32 := broadcastInDim S41x5632 ![] bcast_S_S41x5632 main_cst_0
  let main_v6 : IVec S41x5632 1 := cmpf .olt main_v4 main_v5
  let main_c_1 : IVec S_ 1 := constantI S_ 1 1#1
  let main_v7 : IVec S_ 1 := (fun x v => Host.reduce IntOp.andi x v reducesTo_S41x5632_S_d0_1 h_S_) main_v6 main_c_1
  let main_v8 : IVec S_ 1 := andi main_v3 main_v7
  let main_v9 : FVec F S41 .f32 := Host.absf main_arg2
  let main_cst_2 : FVec F S_ .f32 := constant S_ .f32 0x7F800000#32
  let main_v10 : FVec F S41 .f32 := broadcastInDim S41 ![] bcast_S_S41 main_cst_2
  let main_v11 : IVec S41 1 := cmpf .olt main_v9 main_v10
  let main_c_3 : IVec S_ 1 := constantI S_ 1 1#1
  let main_v12 : IVec S_ 1 := (fun x v => Host.reduce IntOp.andi x v reducesTo_S41_S_d0 h_S_) main_v11 main_c_3
  let main_v13 : IVec S_ 1 := andi main_v8 main_v12
  main_v13
-- ==== Kernel.lean ====
abbrev S16x2000x512 : Shape := ⟨3, ![16, 2000, 512]⟩
abbrev S41x5632 : Shape := ⟨2, ![41, 5632]⟩
abbrev S41 : Shape := ⟨1, ![41]⟩
abbrev S41x11x512 : Shape := ⟨3, ![41, 11, 512]⟩
abbrev S11x512x41 : Shape := ⟨3, ![11, 512, 41]⟩
abbrev S_ : Shape := ⟨0, ![]⟩
abbrev S11x512x128 : Shape := ⟨3, ![11, 512, 128]⟩
abbrev S512x11x128 : Shape := ⟨3, ![512, 11, 128]⟩
abbrev S512x1408 : Shape := ⟨2, ![512, 1408]⟩
abbrev S128 : Shape := ⟨1, ![128]⟩
abbrev S1x128 : Shape := ⟨2, ![1, 128]⟩
abbrev S16x2000x128 : Shape := ⟨3, ![16, 2000, 128]⟩
abbrev S1x2000x512 : Shape := ⟨3, ![1, 2000, 512]⟩
abbrev S1x2000x128 : Shape := ⟨3, ![1, 2000, 128]⟩
abbrev S2010x512 : Shape := ⟨2, ![2010, 512]⟩
abbrev S2010x1408 : Shape := ⟨2, ![2010, 1408]⟩
abbrev S2000x128 : Shape := ⟨2, ![2000, 128]⟩
abbrev S2000x512 : Shape := ⟨2, ![2000, 512]⟩
abbrev S2002x512 : Shape := ⟨2, ![2002, 512]⟩
abbrev S1x512 : Shape := ⟨2, ![1, 512]⟩
abbrev S5x512 : Shape := ⟨2, ![5, 512]⟩
abbrev S6x512 : Shape := ⟨2, ![6, 512]⟩
abbrev S16x2000x41 : Shape := ⟨3, ![16, 2000, 41]⟩

abbrev nBuf : Space → Nat
  | .hbm => 17
  | .vmem => 9
  | .smem => 0
  | _ => 0

abbrev bufTy : (tb : Table) → Fin (tcTables nBuf tb) → BufTy
  | .hbm, ⟨0, _⟩ => ⟨S16x2000x512, .f32⟩
  | .hbm, ⟨1, _⟩ => ⟨S41x5632, .f32⟩
  | .hbm, ⟨2, _⟩ => ⟨S41, .f32⟩
  | .hbm, ⟨3, _⟩ => ⟨S41x11x512, .f32⟩
  | .hbm, ⟨4, _⟩ => ⟨S11x512x41, .f32⟩
  | .hbm, ⟨5, _⟩ => ⟨S_, .i32⟩
  | .hbm, ⟨6, _⟩ => ⟨S_, .f32⟩
  | .hbm, ⟨7, _⟩ => ⟨S11x512x128, .f32⟩
  | .hbm, ⟨8, _⟩ => ⟨S512x11x128, .f32⟩
  | .hbm, ⟨9, _⟩ => ⟨S512x1408, .f32⟩
  | .hbm, ⟨10, _⟩ => ⟨S512x1408, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S16x2000x128, .f32⟩
  | .hbm, ⟨16, _⟩ => ⟨S16x2000x41, .f32⟩
  | .local _ .vmem, ⟨0, _⟩ => ⟨S1x2000x512, .f32⟩
  | .local _ .vmem, ⟨1, _⟩ => ⟨S1x2000x512, .f32⟩
  | .local _ .vmem, ⟨2, _⟩ => ⟨S512x1408, .bf16⟩
  | .local _ .vmem, ⟨3, _⟩ => ⟨S1x128, .f32⟩
  | .local _ .vmem, ⟨4, _⟩ => ⟨S1x2000x128, .f32⟩
  | .local _ .vmem, ⟨5, _⟩ => ⟨S1x2000x128, .f32⟩
  | .local _ .vmem, ⟨6, _⟩ => ⟨S2010x512, .bf16⟩
  | .local _ .vmem, ⟨7, _⟩ => ⟨S2010x1408, .f32⟩
  | .local _ .vmem, ⟨8, _⟩ => ⟨S2000x128, .f32⟩
  | _, _ => ⟨S16x2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S41x5632_S41x11x512 : S41x5632.ShapeCasts S41x11x512
  transposes_S41x11x512_S11x512x41_1_2_0 : S41x11x512.Transposes [1, 2, 0] S11x512x41
  pads_S11x512x41_S11x512x128_000_000_0870 : S11x512x41.Pads (![0, 0, 0] : Fin 3 → Nat) ![0, 0, 87] ![0, 0, 0] S11x512x128
  h_S_ : 0 < S_.numel
  transposes_S11x512x128_S512x11x128_1_0_2 : S11x512x128.Transposes [1, 0, 2] S512x11x128
  shapeCasts_S512x11x128_S512x1408 : S512x11x128.ShapeCasts S512x1408
  bitsLt_bf16_f32 : FTy.bits .bf16 < FTy.bits .f32
  pads_S41_S128_0870 : S41.Pads (![0] : Fin 1 → Nat) ![87] ![0] S128
  shapeCasts_S128_S1x128 : S128.ShapeCasts S1x128
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  inb_S2010x512_S2000x512_5_0 : ∀ a, (![5, 0] : Fin 2 → Nat) a + S2000x512.size a ≤ S2010x512.size a
  h_S2000x512 : 0 < S2000x512.numel
  shapeCasts_S2000x512_S2000x512 : S2000x512.ShapeCasts S2000x512
  inb_S2010x512_S2002x512_4_0 : ∀ a, (![4, 0] : Fin 2 → Nat) a + S2002x512.size a ≤ S2010x512.size a
  h_S2002x512 : 0 < S2002x512.numel
  slices_S2002x512_S2000x512_1_0 : S2002x512.Slices ![1, 0] S2000x512
  packedbf16_S2010x512_S2002x512_4_0 : (Rect.unit (s := S2010x512) ![4, 0] S2002x512.size inb_S2010x512_S2002x512_4_0).PackedRows (EltTy.packing .bf16)
  slices_S2000x512_o0_0_S1x512 : S2000x512.Slices ![0, 0] S1x512
  shapeCasts_S1x512_S1x512 : S1x512.ShapeCasts S1x512
  broadcasts_S1x512_S5x512 : S1x512.Broadcasts S5x512
  inb_S2010x512_S5x512_0_0 : ∀ a, (![0, 0] : Fin 2 → Nat) a + S5x512.size a ≤ S2010x512.size a
  h_S5x512 : 0 < S5x512.numel
  shapeCasts_S5x512_S5x512 : S5x512.ShapeCasts S5x512
  inb_S2010x512_S6x512_0_0 : ∀ a, (![0, 0] : Fin 2 → Nat) a + S6x512.size a ≤ S2010x512.size a
  h_S6x512 : 0 < S6x512.numel
  slices_S6x512_S5x512_0_0 : S6x512.Slices ![0, 0] S5x512
  packedbf16_S2010x512_S6x512_0_0 : (Rect.unit (s := S2010x512) ![0, 0] S6x512.size inb_S2010x512_S6x512_0_0).PackedRows (EltTy.packing .bf16)
  slices_S2000x512_o1999_0_S1x512 : S2000x512.Slices ![1999, 0] S1x512
  inb_S2010x512_S5x512_2005_0 : ∀ a, (![2005, 0] : Fin 2 → Nat) a + S5x512.size a ≤ S2010x512.size a
  inb_S2010x512_S6x512_2004_0 : ∀ a, (![2004, 0] : Fin 2 → Nat) a + S6x512.size a ≤ S2010x512.size a
  slices_S6x512_S5x512_1_0 : S6x512.Slices ![1, 0] S5x512
  packedbf16_S2010x512_S6x512_2004_0 : (Rect.unit (s := S2010x512) ![2004, 0] S6x512.size inb_S2010x512_S6x512_2004_0).PackedRows (EltTy.packing .bf16)
  inb_S2010x512_S2010x512_0_0 : ∀ a, (![0, 0] : Fin 2 → Nat) a + S2010x512.size a ≤ S2010x512.size a
  h_S2010x512 : 0 < S2010x512.numel
  inb_S512x1408_S512x1408_0_0 : ∀ a, (![0, 0] : Fin 2 → Nat) a + S512x1408.size a ≤ S512x1408.size a
  h_S512x1408 : 0 < S512x1408.numel
  shapeCasts_S512x1408_S512x1408 : S512x1408.ShapeCasts S512x1408
  inb_S2010x1408_S2010x1408_0_0 : ∀ a, (![0, 0] : Fin 2 → Nat) a + S2010x1408.size a ≤ S2010x1408.size a
  h_S2010x1408 : 0 < S2010x1408.numel
  shapeCasts_S2010x1408_S2010x1408 : S2010x1408.ShapeCasts S2010x1408
  inb_S2010x1408_S2000x128_10_0 : ∀ a, (![10, 0] : Fin 2 → Nat) a + S2000x128.size a ≤ S2010x1408.size a
  h_S2000x128 : 0 < S2000x128.numel
  inb_S2000x128_S2000x128_0_0 : ∀ a, (![0, 0] : Fin 2 → Nat) a + S2000x128.size a ≤ S2000x128.size a
  shapeCasts_S2000x128_S2000x128 : S2000x128.ShapeCasts S2000x128
  inb_S2010x1408_S2000x128_9_128 : ∀ a, (![9, 128] : Fin 2 → Nat) a + S2000x128.size a ≤ S2010x1408.size a
  inb_S2010x1408_S2000x128_8_256 : ∀ a, (![8, 256] : Fin 2 → Nat) a + S2000x128.size a ≤ S2010x1408.size a
  inb_S2010x1408_S2000x128_7_384 : ∀ a, (![7, 384] : Fin 2 → Nat) a + S2000x128.size a ≤ S2010x1408.size a
  inb_S2010x1408_S2000x128_6_512 : ∀ a, (![6, 512] : Fin 2 → Nat) a + S2000x128.size a ≤ S2010x1408.size a
  inb_S2010x1408_S2000x128_5_640 : ∀ a, (![5, 640] : Fin 2 → Nat) a + S2000x128.size a ≤ S2010x1408.size a
  inb_S2010x1408_S2000x128_4_768 : ∀ a, (![4, 768] : Fin 2 → Nat) a + S2000x128.size a ≤ S2010x1408.size a
  inb_S2010x1408_S2000x128_3_896 : ∀ a, (![3, 896] : Fin 2 → Nat) a + S2000x128.size a ≤ S2010x1408.size a
  inb_S2010x1408_S2000x128_2_1024 : ∀ a, (![2, 1024] : Fin 2 → Nat) a + S2000x128.size a ≤ S2010x1408.size a
  inb_S2010x1408_S2000x128_1_1152 : ∀ a, (![1, 1152] : Fin 2 → Nat) a + S2000x128.size a ≤ S2010x1408.size a
  inb_S2010x1408_S2000x128_0_1280 : ∀ a, (![0, 1280] : Fin 2 → Nat) a + S2000x128.size a ≤ S2010x1408.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S16x2000x128_S16x2000x41_0_0_0 : S16x2000x128.Slices ![0, 0, 0] S16x2000x41
  dot_S2010x512_S512x1408_S2010x1408_1_0_0_1_n_n_wf : DotDims.WF S2010x512 S512x1408 S2010x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x512.size a ≤ S16x2000x512.size a
  hwx0_0 : ∀ i : grid0.Coords, EltTy.bits .f32 = 32 ∨ (Rect.block (s := S16x2000x512) S1x2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1408.size a ≤ S512x1408.size a
  hwx0_1 : ∀ i : grid0.Coords, EltTy.bits .bf16 = 32 ∨ (Rect.block (s := S512x1408) S512x1408.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x128.size a ≤ S16x2000x128.size a
  hwx0_3 : ∀ i : grid0.Coords, EltTy.bits .f32 = 32 ∨ (Rect.block (s := S16x2000x128) S1x2000x128.size (cc0_transform_3 i) (hinb0_3 i)).WholeWords (EltTy.packing .f32)

variable [Facts₀]

def dot_S2010x512_S512x1408_S2010x1408_1_0_0_1_n_n : DotDims S2010x512 S512x1408 S2010x1408 where
  lhsContracting := [1]
  rhsContracting := [0]
  lhsNonContracting := [0]
  rhsNonContracting := [1]
  lhsBatch := []
  rhsBatch := []
  wf := dot_S2010x512_S512x1408_S2010x1408_1_0_0_1_n_n_wf

abbrev win0_0 : Pipeline.Window sig grid0 :=
  Pipeline.Window.ofSpec (Memref.whole main_arg0) S1x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1408.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2000x512 : Shape := ⟨3, ![16, 2000, 512]⟩
abbrev S41x5632 : Shape := ⟨2, ![41, 5632]⟩
abbrev S41 : Shape := ⟨1, ![41]⟩
abbrev S11 : Shape := ⟨1, ![11]⟩
abbrev S_ : Shape := ⟨0, ![]⟩
abbrev S2000 : Shape := ⟨1, ![2000]⟩
abbrev S2000x1 : Shape := ⟨2, ![2000, 1]⟩
abbrev S1x11 : Shape := ⟨2, ![1, 11]⟩
abbrev S2000x11 : Shape := ⟨2, ![2000, 11]⟩
abbrev S2000x11x1 : Shape := ⟨3, ![2000, 11, 1]⟩
abbrev S16x2000x11x512 : Shape := ⟨4, ![16, 2000, 11, 512]⟩
abbrev S16x2000x5632 : Shape := ⟨3, ![16, 2000, 5632]⟩
abbrev S16x2000x41 : Shape := ⟨3, ![16, 2000, 41]⟩
abbrev S1x1x41 : Shape := ⟨3, ![1, 1, 41]⟩

abbrev nBuf : Space → Nat
  | .hbm => 35
  | .vmem => 0
  | .smem => 0
  | _ => 0

abbrev bufTy : (tb : Table) → Fin (tcTables nBuf tb) → BufTy
  | .hbm, ⟨0, _⟩ => ⟨S16x2000x512, .f32⟩
  | .hbm, ⟨1, _⟩ => ⟨S41x5632, .f32⟩
  | .hbm, ⟨2, _⟩ => ⟨S41, .f32⟩
  | .hbm, ⟨3, _⟩ => ⟨S11, .i32⟩
  | .hbm, ⟨4, _⟩ => ⟨S_, .i32⟩
  | .hbm, ⟨5, _⟩ => ⟨S11, .i32⟩
  | .hbm, ⟨6, _⟩ => ⟨S11, .i32⟩
  | .hbm, ⟨7, _⟩ => ⟨S2000, .i32⟩
  | .hbm, ⟨8, _⟩ => ⟨S2000x1, .i32⟩
  | .hbm, ⟨9, _⟩ => ⟨S1x11, .i32⟩
  | .hbm, ⟨10, _⟩ => ⟨S2000x11, .i32⟩
  | .hbm, ⟨11, _⟩ => ⟨S2000x11, .i32⟩
  | .hbm, ⟨12, _⟩ => ⟨S2000x11, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2000x11, .i32⟩
  | .hbm, ⟨17, _⟩ => ⟨S2000x11, .i32⟩
  | .hbm, ⟨18, _⟩ => ⟨S_, .i32⟩
  | .hbm, ⟨19, _⟩ => ⟨S2000x11, .i32⟩
  | .hbm, ⟨20, _⟩ => ⟨S2000x11, .i32⟩
  | .hbm, ⟨21, _⟩ => ⟨S_, .i32⟩
  | .hbm, ⟨22, _⟩ => ⟨S2000x11, .i32⟩
  | .hbm, ⟨23, _⟩ => ⟨S2000x11, .i1⟩
  | .hbm, ⟨24, _⟩ => ⟨S_, .i32⟩
  | .hbm, ⟨25, _⟩ => ⟨S2000x11, .i32⟩
  | .hbm, ⟨26, _⟩ => ⟨S2000x11, .i32⟩
  | .hbm, ⟨27, _⟩ => ⟨S2000x11, .i32⟩
  | .hbm, ⟨28, _⟩ => ⟨S2000x11x1, .i32⟩
  | .hbm, ⟨29, _⟩ => ⟨S16x2000x11x512, .f32⟩
  | .hbm, ⟨30, _⟩ => ⟨S16x2000x5632, .f32⟩
  | .hbm, ⟨31, _⟩ => ⟨S16x2000x41, .f32⟩
  | .hbm, ⟨32, _⟩ => ⟨S1x1x41, .f32⟩
  | .hbm, ⟨33, _⟩ => ⟨S16x2000x41, .f32⟩
  | .hbm, ⟨34, _⟩ => ⟨S16x2000x41, .f32⟩
  | _, _ => ⟨S16x2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S11 : S_.BroadcastsInDim S11 (![] : Fin 0 → Fin S11.rank)
  bcast_S2000_S2000x1_0 : S2000.BroadcastsInDim S2000x1 (![0] : Fin 1 → Fin S2000x1.rank)
  bcast_S11_S1x11_1 : S11.BroadcastsInDim S1x11 (![1] : Fin 1 → Fin S1x11.rank)
  bcast_S2000x1_S2000x11_0_1 : S2000x1.BroadcastsInDim S2000x11 (![0, 1] : Fin 2 → Fin S2000x11.rank)
  bcast_S1x11_S2000x11_0_1 : S1x11.BroadcastsInDim S2000x11 (![0, 1] : Fin 2 → Fin S2000x11.rank)
  bcast_S_S2000x11 : S_.BroadcastsInDim S2000x11 (![] : Fin 0 → Fin S2000x11.rank)
  bcast_S2000x11_S2000x11x1_0_1 : S2000x11.BroadcastsInDim S2000x11x1 (![0, 1] : Fin 2 → Fin S2000x11x1.rank)
  shapeCasts_S16x2000x11x512_S16x2000x5632 : S16x2000x11x512.ShapeCasts S16x2000x5632
  bcast_S41_S1x1x41_2 : S41.BroadcastsInDim S1x1x41 (![2] : Fin 1 → Fin S1x1x41.rank)
  bcast_S1x1x41_S16x2000x41_0_1_2 : S1x1x41.BroadcastsInDim S16x2000x41 (![0, 1, 2] : Fin 3 → Fin S16x2000x41.rank)
  gather_S16x2000x512_S2000x11x1_S16x2000x11x512_03_1_n_n_1_2_161512_wf : GatherDims.WF S16x2000x512 S2000x11x1 S16x2000x11x512 [0, 3] [1] [] [1] [] 2 ![16, 1, 512]
  dot_S16x2000x5632_S41x5632_S16x2000x41_2_1_01_0_n_n_wf : DotDims.WF S16x2000x5632 S41x5632 S16x2000x41 [2] [1] [0, 1] [0] [] []

variable [Facts₀]

def gather_S16x2000x512_S2000x11x1_S16x2000x11x512_03_1_n_n_1_2_161512 : GatherDims S16x2000x512 S2000x11x1 S16x2000x11x512 where
  offsetDims := [0, 3]
  collapsedSliceDims := [1]
  operandBatchingDims := []
  startIndicesBatchingDims := []
  startIndexMap := [1]
  indexVectorDim := 2
  sliceSizes := ![16, 1, 512]
  wf := gather_S16x2000x512_S2000x11x1_S16x2000x11x512_03_1_n_n_1_2_161512_wf
def dot_S16x2000x5632_S41x5632_S16x2000x41_2_1_01_0_n_n : DotDims S16x2000x5632 S41x5632 S16x2000x41 where
  lhsContracting := [2]
  rhsContracting := [1]
  lhsNonContracting := [0, 1]
  rhsNonContracting := [0]
  lhsBatch := []
  rhsBatch := []
  wf := dot_S16x2000x5632_S41x5632_S16x2000x41_2_1_01_0_n_n_wf

class Facts : Prop extends Facts₀ where

variable [Facts]
-- ==== Proof.Spec.lean ====
/-
  The function both programs compute, over the extended reals.

  Each output frame `r` of batch `b` sees eleven neighbouring input frames: channel `c` holds input frame
  `r + 5 - c`, clamped to the valid range `[0, 1999]` (edge frames are repeated). The eleven frames of 512
  features are laid side by side into one vector of length `11 * 512 = 5632`, flattened index `k = c * 512 + d`,
  and a linear layer with weights `W : [41, 5632]` and bias `b : [41]` is applied:

    `G x W b (b, r, o) = (∑ k, x (b, clamp (r + 5 - k / 512), k % 512) * W (o, k)) + b o`.
-/
import Idealize.ShloMosaic.PureOps.Ideal
import Idealize.ShloMosaic.Lib.ValueIdx

noncomputable section

namespace WindowedLinear

open Idealize.ShloMosaic Idealize.ShloMosaic.ValueIdx
open scoped BigOperators

/-- The input frame that channel `c` shows at output frame `r`: `r + 5 - c` clamped into `[0, 1999]`
    (the truncated subtraction is the clamp from below, the `min` the clamp from above). -/
def srcRow (r : Fin 2000) (c : Fin 11) : Fin 2000 := ⟨min (r.val + 5 - c.val) 1999, by omega⟩

/-- The channel of a flattened feature index `k = c * 512 + d`. -/
def chan (k : Fin 5632) : Fin 11 := ⟨k.val / 512, by omega⟩
/-- The feature within the channel of a flattened feature index `k = c * 512 + d`. -/
def lane (k : Fin 5632) : Fin 512 := ⟨k.val % 512, by omega⟩

/-- The flattened feature index of channel `c`, feature `d`. -/
def flat (c : Fin 11) (d : Fin 512) : Fin 5632 := ⟨c.val * 512 + d.val, by omega⟩

theorem chan_flat (c : Fin 11) (d : Fin 512) : chan (flat c d) = c := by
  apply Fin.ext; show (c.val * 512 + d.val) / 512 = c.val; omega
theorem lane_flat (c : Fin 11) (d : Fin 512) : lane (flat c d) = d := by
  apply Fin.ext; show (c.val * 512 + d.val) % 512 = d.val; omega
theorem flat_chan_lane (k : Fin 5632) : flat (chan k) (lane k) = k := by
  apply Fin.ext; show k.val / 512 * 512 + k.val % 512 = k.val; omega

/-- The linear layer applied to the windowed concatenation of frames, entry by entry. -/
def G (x : FVec Ideal ⟨3, ![16, 2000, 512]⟩ .f32) (W : FVec Ideal ⟨2, ![41, 5632]⟩ .f32)
    (b : FVec Ideal ⟨1, ![41]⟩ .f32) : FVec Ideal ⟨3, ![16, 2000, 41]⟩ .f32 :=
  fun j =>
    have jb : Fin 16 := j 0
    have jr : Fin 2000 := j 1
    have jo : Fin 41 := j 2
    (∑ k : Fin 5632, x (ix3 jb (srcRow jr (chan k)) (lane k)) * W (ix2 jo k)) + b (ix1 jo)

theorem G_apply (x : FVec Ideal ⟨3, ![16, 2000, 512]⟩ .f32) (W : FVec Ideal ⟨2, ![41, 5632]⟩ .f32)
    (b : FVec Ideal ⟨1, ![41]⟩ .f32) (jb : Fin 16) (jr : Fin 2000) (jo : Fin 41) :
    G x W b (ix3 jb jr jo)
      = (∑ k : Fin 5632, x (ix3 jb (srcRow jr (chan k)) (lane k)) * W (ix2 jo k)) + b (ix1 jo) := rfl

end WindowedLinear

end
-- ==== Proof.PadRow.lean ====
/-
  The row arithmetic of the edge-replicated buffer.

  Row `i` of the 2010-row buffer holds input frame `i - 5` clamped into `[0, 1999]` (`padRow`). Channel `c` of output
  frame `r` reads buffer row `10 - c + r`, and that row holds frame `r + 5 - c` clamped — the frame the specification
  names (`padRow_window`).
-/
import proofs.«122783_j28260884808343_2_alg».proof.Proof.Spec

namespace WindowedLinear.Rows

/-- The frame that row `i` of the edge-replicated buffer holds: `i - 5` clamped into `[0, 1999]`. -/
def padRow (i : Fin 2010) : Fin 2000 := ⟨min (i.val - 5) 1999, by omega⟩

/-- Buffer row `10 - c + r` holds the frame channel `c` shows at output frame `r`. -/
theorem padRow_window (r : Fin 2000) (c : Fin 11) (h : 10 - c.val + r.val < 2010) :
    padRow ⟨10 - c.val + r.val, h⟩ = WindowedLinear.srcRow r c := by
  apply Fin.ext
  show min (10 - c.val + r.val - 5) 1999 = min (r.val + 5 - c.val) 1999
  have := c.isLt
  omega

end WindowedLinear.Rows
-- ==== Proof.KernelBlock.lean ====
/-
  What one grid point of the kernel leaves in its output block, as a function of its three input blocks: the
  batch's frames `x0 : [1, 2000, 512]`, the packed weights `x1 : [512, 1408]` (eleven lane-groups of 128) and the
  padded bias `x2 : [1, 128]`.

  The frames are laid into an edge-replicated buffer of 2010 rows (`padded`: row `i` holds frame `clamp (i - 5)`),
  multiplied ONCE by the packed weights (`ymat : [2010, 1408]`), and the eleven channels' contributions — channel
  `c` is the block of `ymat` at rows `10 - c …`, lanes `128 c …` — are added up one after the other (`acc0 … acc9`,
  `accAll`); the bias is added last (`blockOut`). Everything here is stated through the body's own pure operations,
  at any float instance.
-/
import proofs.«122783_j28260884808343_2_alg».proof.Proof.Gen.KernelIdeal.Skeleton
import proofs.«122783_j28260884808343_2_alg».proof.Proof.PadRow
import Idealize.ShloMosaic.Lib.Pipeline.Value

noncomputable section

namespace Cert.KernelIdeal.Block

open Cert.KernelIdeal Cert.KernelIdeal.Gen
open Idealize.ShloMosaic Idealize.ShloMosaic.ValueIdx

variable {F : FTy → Type} [FloatOps F]

/-- The edge-replicated frames: row `i` is frame `i - 5` clamped into `[0, 1999]`. -/
def padded (x0 : Vec F S1x2000x512 .f32) : Vec F S2010x512 .bf16 :=
  fun y =>
    have yi : Fin 2010 := y 0
    have yj : Fin 512 := y 1
    k0_pay4 x0 (ix2 (WindowedLinear.Rows.padRow yi) yj)

/-- The one wide product: padded frames times packed weights. -/
def ymat (x0 : Vec F S1x2000x512 .f32) (x1 : Vec F S512x1408 .bf16) : FVec F S2010x1408 .f32 :=
  k0_pay7 (padded x0) x1

/-- Channel 0's block of the product: rows `10 …`, lanes `0 …`. -/
def ysl0 (x0 : Vec F S1x2000x512 .f32) (x1 : Vec F S512x1408 .bf16) : Vec F S2000x128 .f32 :=
  View.ld (Val := Elt F) (e' := .f32) (ymat x0 x1) (Rect.unit (s := S2010x1408) ![10, 0] S2000x128.size inb_S2010x1408_S2000x128_10_0)

/-- Channel 1's block of the product: rows `9 …`, lanes `128 …`. -/
def ysl1 (x0 : Vec F S1x2000x512 .f32) (x1 : Vec F S512x1408 .bf16) : Vec F S2000x128 .f32 :=
  View.ld (Val := Elt F) (e' := .f32) (ymat x0 x1) (Rect.unit (s := S2010x1408) ![9, 128] S2000x128.size inb_S2010x1408_S2000x128_9_128)

/-- Channel 2's block of the product: rows `8 …`, lanes `256 …`. -/
def ysl2 (x0 : Vec F S1x2000x512 .f32) (x1 : Vec F S512x1408 .bf16) : Vec F S2000x128 .f32 :=
  View.ld (Val := Elt F) (e' := .f32) (ymat x0 x1) (Rect.unit (s := S2010x1408) ![8, 256] S2000x128.size inb_S2010x1408_S2000x128_8_256)

/-- Channel 3's block of the product: rows `7 …`, lanes `384 …`. -/
def ysl3 (x0 : Vec F S1x2000x512 .f32) (x1 : Vec F S512x1408 .bf16) : Vec F S2000x128 .f32 :=
  View.ld (Val := Elt F) (e' := .f32) (ymat x0 x1) (Rect.unit (s := S2010x1408) ![7, 384] S2000x128.size inb_S2010x1408_S2000x128_7_384)

/-- Channel 4's block of the product: rows `6 …`, lanes `512 …`. -/
def ysl4 (x0 : Vec F S1x2000x512 .f32) (x1 : Vec F S512x1408 .bf16) : Vec F S2000x128 .f32 :=
  View.ld (Val := Elt F) (e' := .f32) (ymat x0 x1) (Rect.unit (s := S2010x1408) ![6, 512] S2000x128.size inb_S2010x1408_S2000x128_6_512)

/-- Channel 5's block of the product: rows `5 …`, lanes `640 …`. -/
def ysl5 (x0 : Vec F S1x2000x512 .f32) (x1 : Vec F S512x1408 .bf16) : Vec F S2000x128 .f32 :=
  View.ld (Val := Elt F) (e' := .f32) (ymat x0 x1) (Rect.unit (s := S2010x1408) ![5, 640] S2000x128.size inb_S2010x1408_S2000x128_5_640)

/-- Channel 6's block of the product: rows `4 …`, lanes `768 …`. -/
def ysl6 (x0 : Vec F S1x2000x512 .f32) (x1 : Vec F S512x1408 .bf16) : Vec F S2000x128 .f32 :=
  View.ld (Val := Elt F) (e' := .f32) (ymat x0 x1) (Rect.unit (s := S2010x1408) ![4, 768] S2000x128.size inb_S2010x1408_S2000x128_4_768)

/-- Channel 7's block of the product: rows `3 …`, lanes `896 …`. -/
def ysl7 (x0 : Vec F S1x2000x512 .f32) (x1 : Vec F S512x1408 .bf16) : Vec F S2000x128 .f32 :=
  View.ld (Val := Elt F) (e' := .f32) (ymat x0 x1) (Rect.unit (s := S2010x1408) ![3, 896] S2000x128.size inb_S2010x1408_S2000x128_3_896)

/-- Channel 8's block of the product: rows `2 …`, lanes `1024 …`. -/
def ysl8 (x0 : Vec F S1x2000x512 .f32) (x1 : Vec F S512x1408 .bf16) : Vec F S2000x128 .f32 :=
  View.ld (Val := Elt F) (e' := .f32) (ymat x0 x1) (Rect.unit (s := S2010x1408) ![2, 1024] S2000x128.size inb_S2010x1408_S2000x128_2_1024)

/-- Channel 9's block of the product: rows `1 …`, lanes `1152 …`. -/
def ysl9 (x0 : Vec F S1x2000x512 .f32) (x1 : Vec F S512x1408 .bf16) : Vec F S2000x128 .f32 :=
  View.ld (Val := Elt F) (e' := .f32) (ymat x0 x1) (Rect.unit (s := S2010x1408) ![1, 1152] S2000x128.size inb_S2010x1408_S2000x128_1_1152)

/-- Channel 10's block of the product: rows `0 …`, lanes `1280 …`. -/
def ysl10 (x0 : Vec F S1x2000x512 .f32) (x1 : Vec F S512x1408 .bf16) : Vec F S2000x128 .f32 :=
  View.ld (Val := Elt F) (e' := .f32) (ymat x0 x1) (Rect.unit (s := S2010x1408) ![0, 1280] S2000x128.size inb_S2010x1408_S2000x128_0_1280)

/-- The running sum after channel 0, -/
def acc0 (x0 : Vec F S1x2000x512 .f32) (x1 : Vec F S512x1408 .bf16) : Vec F S2000x128 .f32 := k0_pay8 (ysl0 x0 x1)
/-- after channel 1, -/
def acc1 (x0 : Vec F S1x2000x512 .f32) (x1 : Vec F S512x1408 .bf16) : Vec F S2000x128 .f32 := k0_pay9 (acc0 x0 x1) (ysl1 x0 x1)
/-- after channel 2, -/
def acc2 (x0 : Vec F S1x2000x512 .f32) (x1 : Vec F S512x1408 .bf16) : Vec F S2000x128 .f32 := k0_pay10 (acc1 x0 x1) (ysl2 x0 x1)
/-- after channel 3, -/
def acc3 (x0 : Vec F S1x2000x512 .f32) (x1 : Vec F S512x1408 .bf16) : Vec F S2000x128 .f32 := k0_pay11 (acc2 x0 x1) (ysl3 x0 x1)
/-- after channel 4, -/
def acc4 (x0 : Vec F S1x2000x512 .f32) (x1 : Vec F S512x1408 .bf16) : Vec F S2000x128 .f32 := k0_pay12 (acc3 x0 x1) (ysl4 x0 x1)
/-- after channel 5, -/
def acc5 (x0 : Vec F S1x2000x512 .f32) (x1 : Vec F S512x1408 .bf16) : Vec F S2000x128 .f32 := k0_pay13 (acc4 x0 x1) (ysl5 x0 x1)
/-- after channel 6, -/
def acc6 (x0 : Vec F S1x2000x512 .f32) (x1 : Vec F S512x1408 .bf16) : Vec F S2000x128 .f32 := k0_pay14 (acc5 x0 x1) (ysl6 x0 x1)
/-- after channel 7, -/
def acc7 (x0 : Vec F S1x2000x512 .f32) (x1 : Vec F S512x1408 .bf16) : Vec F S2000x128 .f32 := k0_pay15 (acc6 x0 x1) (ysl7 x0 x1)
/-- after channel 8, -/
def acc8 (x0 : Vec F S1x2000x512 .f32) (x1 : Vec F S512x1408 .bf16) : Vec F S2000x128 .f32 := k0_pay16 (acc7 x0 x1) (ysl8 x0 x1)
/-- after channel 9, -/
def acc9 (x0 : Vec F S1x2000x512 .f32) (x1 : Vec F S512x1408 .bf16) : Vec F S2000x128 .f32 := k0_pay17 (acc8 x0 x1) (ysl9 x0 x1)
/-- and after all eleven channels. -/
def accAll (x0 : Vec F S1x2000x512 .f32) (x1 : Vec F S512x1408 .bf16) : Vec F S2000x128 .f32 :=
  k0_pay1 (k0_pay18 (acc9 x0 x1) (ysl10 x0 x1))

/-- The output block: the eleven channels' sum plus the bias, on every row. -/
def blockOut (x0 : Vec F S1x2000x512 .f32) (x1 : Vec F S512x1408 .bf16) (x2 : Vec F S1x128 .f32) : Vec F S1x2000x128 .f32 :=
  k0_pay2 (accAll x0 x1) x2

end Cert.KernelIdeal.Block

end
-- ==== Proof.PaddedRows.lean ====
/-
  Rows of a two-dimensional buffer overwritten in place.

  A store of `n` whole rows at row offset `o` replaces rows `o, …, o + n - 1` and leaves every other row alone
  (`updateSlice_rows`); a load of `n` whole rows at row offset `o` reads row `o + l` at local row `l` (`ld_rows`).
  With these, the edge-replicated buffer of the windowed concatenation is computed row by row (`padded_rows`): three
  overlapping stores — frames `0 … 1999` into rows `5 … 2004` (through a window of rows `4 … 2005` whose first and last
  row are put back as they were), frame `0` into rows `0 … 4` (through rows `0 … 5`, row `5` put back), frame `1999`
  into rows `2005 … 2009` (through rows `2004 … 2009`, row `2004` put back) — leave row `i` holding frame
  `clamp (i - 5)`, whatever the buffer held before: every row put back was written by an earlier store.
-/
import Idealize.ShloMosaic.Lib.Pipeline.Value
import Idealize.ShloMosaic.Lib.Pipeline.FrameBody
import Idealize.ShloMosaic.Lib.ValueIdx
import proofs.«122783_j28260884808343_2_alg».proof.Proof.PadRow

noncomputable section

namespace WindowedLinear.Rows

open Idealize.ShloMosaic Idealize.ShloMosaic.ValueIdx

variable {Val : EltTy → Type} {e : EltTy}

/-- Overwriting rows `o, …, o + n - 1` (every column) of `X` by `w`: inside the band the update's row, outside `X`. -/
theorem updateSlice_rows {N n C : Nat} (X : (⟨2, ![N, C]⟩ : Shape).Idx → Val e) (w : (⟨2, ![n, C]⟩ : Shape).Idx → Val e) (o : Nat)
    (h : (⟨2, ![N, C]⟩ : Shape).Slices ![o, 0] ⟨2, ![n, C]⟩) (i : Fin N) (j : Fin C) :
    updateSlice X w ![o, 0] h (ix2 i j)
      = if hh : o ≤ i.val ∧ i.val < o + n then w (ix2 ⟨i.val - o, by omega⟩ j) else X (ix2 i j) := by
  unfold updateSlice
  by_cases hh : o ≤ i.val ∧ i.val < o + n
  · rw [dif_pos hh, dif_pos (by
      intro a
      match a with
      | ⟨0, _⟩ => exact hh
      | ⟨1, _⟩ => exact ⟨Nat.zero_le _, by have := j.isLt; simpa using this⟩)]
    congr 1
    funext b
    match b with
    | ⟨0, _⟩ => rfl
    | ⟨1, _⟩ => rfl
  · rw [dif_neg hh, dif_neg (fun hall => hh (hall (0 : Fin 2)))]

/-- Loading `n` whole rows at row offset `o`: local row `l` is row `o + l`. -/
theorem ld_rows {N n C : Nat} (X : (⟨2, ![N, C]⟩ : Shape).Idx → Val e) (o : Nat)
    (inb : ∀ a, (![o, 0] : Fin 2 → Nat) a + (![n, C] : Fin 2 → Nat) a ≤ (⟨2, ![N, C]⟩ : Shape).size a)
    (l : Fin n) (j : Fin C) :
    View.ld X (Rect.unit (s := ⟨2, ![N, C]⟩) ![o, 0] ![n, C] inb) (ix2 l j)
      = X (ix2 ⟨o + l.val, by have h0 : o + n ≤ N := inb (0 : Fin 2); omega⟩ j) := by
  show X ((Rect.unit (s := ⟨2, ![N, C]⟩) ![o, 0] ![n, C] inb).emb (ix2 l j)) = _
  congr 1
  funext a
  match a with
  | ⟨0, _⟩ => exact Fin.ext (show o + 1 * l.val = o + l.val by omega)
  | ⟨1, _⟩ => exact Fin.ext (show 0 + 1 * j.val = j.val by omega)

/-- One more listed store through a unit-stride rectangle: what the view reads afterwards is what it read before,
    updated by the payload at the rectangle's offsets. -/
theorem read_writes_cons_unit {sig : RefSig} {κ : Kind} {sp : Space} {s : Shape} (v : View sig κ sp s e) (f : v.ty.Contents Val)
    (off size : Fin s.rank → Nat) (inb : ∀ a, off a + size a ≤ s.size a)
    (w : (Rect.unit off size inb).shape.Idx → Val e) (L : List (View.Piece Val s e)) :
    v.read Val (v.writes Val f (⟨Rect.unit off size inb, w⟩ :: L))
      = updateSlice (v.read Val (v.writes Val f L)) w off ⟨rfl, inb⟩ := by
  funext i
  unfold updateSlice
  split
  · next hin =>
    have hin' : ∀ a, off a ≤ (i a).val ∧ (i a).val < off a + size a := hin
    have hy : (Rect.unit off size inb).emb (fun a => (⟨(i a).val - off a, by have := hin' a; omega⟩ : Fin (size a))) = i := by
      funext a; apply Fin.ext
      rw [Rect.emb_apply]
      have := hin' a
      show off a + 1 * ((i a).val - off a) = (i a).val
      omega
    conv_lhs => rw [← hy, View.read_writes_cons_emb]
    rfl
  · next hout =>
    rw [View.writes_cons, View.read_slice_write_of_not_mem _ _ _ _ (by
      rw [Rect.map_emb_univ]; intro hm
      exact hout (fun a => by have := (Rect.mem_set_unit (inb := inb)).mp hm a; exact ⟨this.1, this.2⟩))]

/-- Three overlapping row stores leave the edge-replicated frames: row `i` holds frame `padRow i` of `q`, whatever the
    buffer held before (`J` under the stores, `Z` where the rows put back were read from). -/
theorem padded_rows (J Z : (⟨2, ![2010, 512]⟩ : Shape).Idx → Val e) (q : (⟨2, ![2000, 512]⟩ : Shape).Idx → Val e)
    (a b : (⟨2, ![5, 512]⟩ : Shape).Idx → Val e)
    (ha : ∀ (l : Fin 5) (j : Fin 512), a (ix2 l j) = q (ix2 ⟨0, by omega⟩ j))
    (hb : ∀ (l : Fin 5) (j : Fin 512), b (ix2 l j) = q (ix2 ⟨1999, by omega⟩ j))
    (inb1 : ∀ a, (![4, 0] : Fin 2 → Nat) a + (![2002, 512] : Fin 2 → Nat) a ≤ (⟨2, ![2010, 512]⟩ : Shape).size a)
    (inb2 : ∀ a, (![0, 0] : Fin 2 → Nat) a + (![6, 512] : Fin 2 → Nat) a ≤ (⟨2, ![2010, 512]⟩ : Shape).size a)
    (inb3 : ∀ a, (![2004, 0] : Fin 2 → Nat) a + (![6, 512] : Fin 2 → Nat) a ≤ (⟨2, ![2010, 512]⟩ : Shape).size a)
    (g1 : (⟨2, ![2002, 512]⟩ : Shape).Slices ![1, 0] ⟨2, ![2000, 512]⟩)
    (g2 : (⟨2, ![6, 512]⟩ : Shape).Slices ![0, 0] ⟨2, ![5, 512]⟩)
    (g3 : (⟨2, ![6, 512]⟩ : Shape).Slices ![1, 0] ⟨2, ![5, 512]⟩)
    (h1 : (⟨2, ![2010, 512]⟩ : Shape).Slices ![4, 0] ⟨2, ![2002, 512]⟩)
    (h2 : (⟨2, ![2010, 512]⟩ : Shape).Slices ![0, 0] ⟨2, ![6, 512]⟩)
    (h3 : (⟨2, ![2010, 512]⟩ : Shape).Slices ![2004, 0] ⟨2, ![6, 512]⟩)
    (o1 : (⟨2, ![2002, 512]⟩ : Shape).Idx → Val e) (Z1 : (⟨2, ![2010, 512]⟩ : Shape).Idx → Val e)
    (o2 : (⟨2, ![6, 512]⟩ : Shape).Idx → Val e) (Z2 : (⟨2, ![2010, 512]⟩ : Shape).Idx → Val e)
    (o3 : (⟨2, ![6, 512]⟩ : Shape).Idx → Val e)
    (ho1 : o1 = updateSlice (View.ld Z (Rect.unit (s := ⟨2, ![2010, 512]⟩) ![4, 0] ![2002, 512] inb1)) q ![1, 0] g1)
    (hZ1 : Z1 = updateSlice Z o1 ![4, 0] h1)
    (ho2 : o2 = updateSlice (View.ld Z1 (Rect.unit (s := ⟨2, ![2010, 512]⟩) ![0, 0] ![6, 512] inb2)) a ![0, 0] g2)
    (hZ2 : Z2 = updateSlice Z1 o2 ![0, 0] h2)
    (ho3 : o3 = updateSlice (View.ld Z2 (Rect.unit (s := ⟨2, ![2010, 512]⟩) ![2004, 0] ![6, 512] inb3)) b ![1, 0] g3)
    (i : Fin 2010) (j : Fin 512) :
    updateSlice (updateSlice (updateSlice J o1 ![4, 0] h1) o2 ![0, 0] h2) o3 ![2004, 0] h3 (ix2 i j) = q (ix2 (padRow i) j) := by
  subst ho3 hZ2 ho2 hZ1 ho1
  have hi := i.isLt
  simp only [updateSlice_rows]
  split_ifs
  all_goals try (rw [ld_rows]; (try simp only [updateSlice_rows]); (try split_ifs))
  all_goals try (rw [ld_rows]; (try simp only [updateSlice_rows]); (try split_ifs))
  all_goals try (rw [ld_rows]; (try simp only [updateSlice_rows]); (try split_ifs))
  all_goals
    first
    | (exfalso; omega)
    | (refine congrArg q (congrArg (fun r => ix2 r j) (Fin.ext ?_)); simp only [padRow]; omega)
    | (rw [ha]; refine congrArg q (congrArg (fun r => ix2 r j) (Fin.ext ?_)); simp only [padRow]; omega)
    | (rw [hb]; refine congrArg q (congrArg (fun r => ix2 r j) (Fin.ext ?_)); simp only [padRow]; omega)

end WindowedLinear.Rows

end
-- ==== Proof.ReadBack.lean ====
/-
  Reading back what listed stores left in a buffer.

  A load of the whole buffer after a list of stores whose last one filled the buffer reads that store's payload
  (`readCov_head`); after ONE store that filled the buffer, a load through any rectangle reads the payload through
  that rectangle (`readCov_sub`); a load through the whole-shape rectangle reads what the view reads
  (`readAt_whole`). And the three overlapping row stores of the edge-replicated buffer, each putting back the rows
  of its window it does not replace, leave row `i` at frame `padRow i` whatever the buffer held (`read_padded`,
  from `Rows.padded_rows`).
-/
import proofs.«122783_j28260884808343_2_alg».proof.Proof.PaddedRows
import Idealize.ShloMosaic.Lib.Exec.Geometry

noncomputable section

namespace WindowedLinear.Rows

open Idealize.ShloMosaic Idealize.ShloMosaic.ValueIdx

variable {Val : EltTy → Type} {e : EltTy} {sig : RefSig} {κ : Kind} {sp : Space}

/-- A load through the whole-shape rectangle reads what the view reads. -/
theorem readAt_whole {S : Shape} (v : View sig κ sp S e) (f : v.ty.Contents Val) {off : Fin S.rank → Nat}
    (hz : off = fun _ => 0) (inb : ∀ a, off a + S.size a ≤ S.size a) :
    v.readAt Val (Rect.unit off S.size inb).toLoadRect f = v.read Val f := by
  rw [View.readAt_eq_ld]; exact View.ld_unit_zero hz inb _

/-- After stores whose LAST one filled the whole buffer, a load of the whole buffer reads that store's payload. -/
theorem readCov_head [∀ e, Nonempty (Val e)] {S : Shape} (v : View sig κ sp S e) {off : Fin S.rank → Nat}
    (hz : off = fun _ => 0) (inb : ∀ a, off a + S.size a ≤ S.size a) (w : S.Idx → Val e)
    (L L' : List (View.Piece Val S e)) (hL : L = (⟨Rect.unit off S.size inb, w⟩ : View.Piece Val S e) :: L') :
    v.readCov L (Rect.unit off S.size inb).toLoadRect = w := by
  subst hL
  rw [View.readCov_eq_canon_ld _ _ _ (fun y => ⟨_, List.mem_cons_self, View.mem_set_unit_zero hz inb y⟩),
    View.canon_cons_unit_zero hz, View.ld_unit_zero hz]

/-- After ONE store that filled the whole buffer, a load through any rectangle reads the payload through it. -/
theorem readCov_sub [∀ e, Nonempty (Val e)] {S : Shape} (v : View sig κ sp S e) {off : Fin S.rank → Nat}
    (hz : off = fun _ => 0) (inb : ∀ a, off a + S.size a ≤ S.size a) (w : S.Idx → Val e)
    (L : List (View.Piece Val S e)) (hL : L = [(⟨Rect.unit off S.size inb, w⟩ : View.Piece Val S e)]) (r : Rect S) :
    v.readCov L r.toLoadRect = View.ld w r := by
  subst hL
  rw [View.readCov_eq_canon_ld _ _ _ (fun y => ⟨_, List.mem_singleton_self _, View.mem_set_unit_zero hz inb y⟩),
    View.canon_unit_zero hz]

/-- The edge-replicated buffer through a view: after the three row stores (each payload the rows its window held,
    updated by the new rows), row `i` reads frame `padRow i` of `q`, whatever the contents `g` under the stores and
    the contents `f` the windows were read from. -/
theorem read_padded (v : View sig κ sp ⟨2, ![2010, 512]⟩ e) (f g : v.ty.Contents Val)
    (q : (⟨2, ![2000, 512]⟩ : Shape).Idx → Val e) (a b : (⟨2, ![5, 512]⟩ : Shape).Idx → Val e)
    (ha : ∀ (l : Fin 5) (j : Fin 512), a (ix2 l j) = q (ix2 ⟨0, by omega⟩ j))
    (hb : ∀ (l : Fin 5) (j : Fin 512), b (ix2 l j) = q (ix2 ⟨1999, by omega⟩ j))
    (inb1 : ∀ a, (![4, 0] : Fin 2 → Nat) a + (![2002, 512] : Fin 2 → Nat) a ≤ (⟨2, ![2010, 512]⟩ : Shape).size a)
    (inb2 : ∀ a, (![0, 0] : Fin 2 → Nat) a + (![6, 512] : Fin 2 → Nat) a ≤ (⟨2, ![2010, 512]⟩ : Shape).size a)
    (inb3 : ∀ a, (![2004, 0] : Fin 2 → Nat) a + (![6, 512] : Fin 2 → Nat) a ≤ (⟨2, ![2010, 512]⟩ : Shape).size a)
    (g1 : (⟨2, ![2002, 512]⟩ : Shape).Slices ![1, 0] ⟨2, ![2000, 512]⟩)
    (g2 : (⟨2, ![6, 512]⟩ : Shape).Slices ![0, 0] ⟨2, ![5, 512]⟩)
    (g3 : (⟨2, ![6, 512]⟩ : Shape).Slices ![1, 0] ⟨2, ![5, 512]⟩)
    (L1 L2 L3 : List (View.Piece Val ⟨2, ![2010, 512]⟩ e))
    (hL1 : L1 = [⟨Rect.unit ![4, 0] ![2002, 512] inb1,
      updateSlice (v.readAt Val (Rect.unit ![4, 0] ![2002, 512] inb1).toLoadRect f) q ![1, 0] g1⟩])
    (hL2 : L2 = ⟨Rect.unit ![0, 0] ![6, 512] inb2,
      updateSlice (v.readAt Val (Rect.unit ![0, 0] ![6, 512] inb2).toLoadRect (v.writes Val f L1)) a ![0, 0] g2⟩ :: L1)
    (hL3 : L3 = ⟨Rect.unit ![2004, 0] ![6, 512] inb3,
      updateSlice (v.readAt Val (Rect.unit ![2004, 0] ![6, 512] inb3).toLoadRect (v.writes Val f L2)) b ![1, 0] g3⟩ :: L2)
    (i : Fin 2010) (j : Fin 512) :
    v.read Val (v.writes Val g L3) (ix2 i j) = q (ix2 (padRow i) j) := by
  subst hL3 hL2 hL1
  rw [read_writes_cons_unit, read_writes_cons_unit, read_writes_cons_unit]
  simp only [View.readAt_eq_ld, read_writes_cons_unit, View.writes_nil]
  exact padded_rows (v.read Val g) (v.read Val f) q a b ha hb inb1 inb2 inb3 g1 g2 g3 _ _ _ _ _ _ _ _ rfl rfl rfl rfl rfl i j

end WindowedLinear.Rows

end
-- ==== Proof.BodyRun.lean ====
/-
  The kernel body at one grid point, and the frame of the whole program from it.

  On whole staging buffers — the batch's frames at `x0`, the packed weights at `x1`, the padded bias at `x2`, the
  output's and the three scratch buffers at anything — the body runs to the end leaving the inputs as they were and the
  output's buffer at `Block.blockOut x0 x1 x2` (`sound_kernel`). What the run finds in each buffer is read back level by
  level: the padded frames are three overlapping row stores (`Rows.read_padded`), the wide product is one store of the
  whole buffer read through eleven rectangles (`Rows.readCov_sub`), the accumulator is stored whole and read back whole
  eleven times (`Rows.readCov_head`). The scratch buffers are handed over and taken back at unnamed contents, so the
  pipeline's invariant is the plain one; the proof data names the output block at every point (`dats`), and the
  library's launch theorem gives the run of the whole program (`run_main`) and its frame (`frame`).
-/
import proofs.«122783_j28260884808343_2_alg».proof.Proof.Gen.KernelIdeal.Frame
import proofs.«122783_j28260884808343_2_alg».proof.Proof.Gen.KernelIdeal.Skeleton
import proofs.«122783_j28260884808343_2_alg».proof.Proof.KernelBlock
import proofs.«122783_j28260884808343_2_alg».proof.Proof.ReadBack
import Idealize.ShloMosaic.Lib.Pipeline.Frame
import Idealize.ShloMosaic.Lib.Exec.Geometry
import Idealize.ShloMosaic.Lib.Tactic

set_option maxRecDepth 16384

noncomputable section

namespace Cert.KernelIdeal.Body

open Cert.KernelIdeal Cert.KernelIdeal.Gen Cert.KernelIdeal.Block
open WindowedLinear.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Small facts -/

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-- The five rows stored at the top are all frame 0, -/
theorem pay5_row (x0 : Vec F S1x2000x512 .f32) (l : Fin 5) (j : Fin 512) :
    k0_pay5 x0 (ix2 l j) = k0_pay4 x0 (ix2 ⟨0, by omega⟩ j) := by
  unfold k0_pay5 k0_pay4
  rw [shapeCast_self, shapeCast_self, shapeCast_self,
    broadcastTo_apply _ _ (ix2 l j) (ix2 (⟨0, by omega⟩ : Fin 1) j) (by
      intro a; match a with | ⟨0, _⟩ => rfl | ⟨1, _⟩ => rfl),
    extractStridedSlice_apply _ _ _ (ix2 (⟨0, by omega⟩ : Fin 1) j) (ix2 (⟨0, by omega⟩ : Fin 2000) j) (by
      intro a; match a with | ⟨0, _⟩ => rfl | ⟨1, _⟩ => exact (Nat.zero_add _).symm)]
/-- and the five rows stored at the bottom are all frame 1999. -/
theorem pay6_row (x0 : Vec F S1x2000x512 .f32) (l : Fin 5) (j : Fin 512) :
    k0_pay6 x0 (ix2 l j) = k0_pay4 x0 (ix2 ⟨1999, by omega⟩ j) := by
  unfold k0_pay6 k0_pay4
  rw [shapeCast_self, shapeCast_self, shapeCast_self,
    broadcastTo_apply _ _ (ix2 l j) (ix2 (⟨0, by omega⟩ : Fin 1) j) (by
      intro a; match a with | ⟨0, _⟩ => rfl | ⟨1, _⟩ => rfl),
    extractStridedSlice_apply _ _ _ (ix2 (⟨0, by omega⟩ : Fin 1) j) (ix2 (⟨1999, by omega⟩ : Fin 2000) j) (by
      intro a; match a with | ⟨0, _⟩ => rfl | ⟨1, _⟩ => exact (Nat.zero_add _).symm)]

/-! ## The body's triple -/

set_option maxHeartbeats 4000000 in
/-- The kernel body on whole memrefs: the inputs' at read contents `x0`, `x1`, `x2`, the output's and the scratch
    buffers' at anything; it runs to the continuation holding the inputs' as they were, the output's at
    `blockOut x0 x1 x2`, the scratch buffers' at some contents. -/
theorem sound_kernel (c : Dev nD) (E : Set ℕ) (i : grid0.Coords)
    (arg1 : Memref sig .tc .vmem S1x2000x512 .f32) (harg1 : arg1.IsWhole) (arg2 : Memref sig .tc .vmem S512x1408 .bf16) (harg2 : arg2.IsWhole)
    (arg3 : Memref sig .tc .vmem S1x128 .f32) (harg3 : arg3.IsWhole) (arg4 : Memref sig .tc .vmem S1x2000x128 .f32) (harg4 : arg4.IsWhole)
    (arg5 : Memref sig .tc .vmem S2010x512 .bf16) (harg5 : arg5.IsWhole) (arg6 : Memref sig .tc .vmem S2010x1408 .f32) (harg6 : arg6.IsWhole)
    (arg7 : Memref sig .tc .vmem S2000x128 .f32) (harg7 : arg7.IsWhole)
    (x0 : Vec F S1x2000x512 .f32) (x1 : Vec F S512x1408 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2) ∗ (∃ d, owns (c : Thread nD τ) arg5 fullShare d)
            ∗ (∃ d, owns (c : Thread nD τ) arg6 fullShare d) ∗ (∃ d, owns (c : Thread nD τ) arg7 fullShare d)) -∗ K ⟨⟩))
      ⊢ wp frame (wpE (defs₀ (F := F)) Variants.none c none) E (cc0__concat_linear_kernel i arg1 harg1 arg2 harg2 arg3 harg3 arg4 harg4 arg5 harg5 arg6 harg6 arg7 harg7) K := by
  simp only [cc0__concat_linear_kernel_eq_skeleton]; unfold cc0__concat_linear_kernel_skel
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    -- the three inputs, loaded whole
    have r0 : View.readAt (Elt F) arg1.view (Rect.unit (s := S1x2000x512) ![0, 0, 0] S1x2000x512.size inb_S1x2000x512_S1x2000x512_0_0_0).toLoadRect f0
        = View.read (Elt F) arg1.view f0 := readAt_whole _ _ hz3 _
    have r1 : View.readAt (Elt F) arg2.view (Rect.unit (s := S512x1408) ![0, 0] S512x1408.size inb_S512x1408_S512x1408_0_0).toLoadRect f1
        = View.read (Elt F) arg2.view f1 := readAt_whole _ _ hz2 _
    have r2 : View.readAt (Elt F) arg3.view (Rect.unit (s := S1x128) ![0, 0] S1x128.size inb_S1x128_S1x128_0_0).toLoadRect f2
        = View.read (Elt F) arg3.view f2 := readAt_whole _ _ hz2 _
    -- the edge-replicated frames, read back whole after the three row stores
    have e18 : sound_kernel.sl.v18 c arg1 arg5 f0 f5 = padded (View.read (Elt F) arg1.view f0) := by
      funext y
      obtain ⟨yi, yj, rfl⟩ : ∃ (yi : Fin 2010) (yj : Fin 512), y = ix2 yi yj := ⟨y 0, y 1, eq_ix2 y⟩
      show View.readAt (Elt F) arg5.view (Rect.unit (s := S2010x512) ![0, 0] S2010x512.size inb_S2010x512_S2010x512_0_0).toLoadRect
          (arg5.view.writes (Elt F) arg5.view.junk (sound_kernel.sl.H5_3 c arg1 arg5 f0 f5)) (ix2 yi yj) = _
      rw [readAt_whole _ _ hz2 _]
      refine (read_padded arg5.view f5 arg5.view.junk _ _ _ (pay5_row _) (pay6_row _)
        inb_S2010x512_S2002x512_4_0 inb_S2010x512_S6x512_0_0 inb_S2010x512_S6x512_2004_0
        slices_S2002x512_S2000x512_1_0 slices_S6x512_S5x512_0_0 slices_S6x512_S5x512_1_0
        (sound_kernel.sl.H5_1 c arg1 arg5 f0 f5) (sound_kernel.sl.H5_2 c arg1 arg5 f0 f5) (sound_kernel.sl.H5_3 c arg1 arg5 f0 f5)
        rfl rfl rfl yi yj).trans ?_
      rw [r0]; rfl
    -- the wide product, read through any rectangle
    have eY : ∀ r : Rect S2010x1408, arg6.view.readCov (sound_kernel.sl.H6_1 c arg1 arg2 arg5 f0 f1 f5) r.toLoadRect
        = View.ld (Val := Elt F) (e' := .f32) (ymat (View.read (Elt F) arg1.view f0) (View.read (Elt F) arg2.view f1)) r := fun r => by
      refine (readCov_sub arg6.view hz2 _ _ (sound_kernel.sl.H6_1 c arg1 arg2 arg5 f0 f1 f5) rfl r).trans ?_
      rw [e18, r1]; rfl
    have e_v25 : sound_kernel.sl.v25 c arg1 arg2 arg5 arg6 f0 f1 f5 = ysl0 (View.read (Elt F) arg1.view f0) (View.read (Elt F) arg2.view f1) := eY _
    have e_v30 : sound_kernel.sl.v30 c arg1 arg2 arg5 arg6 f0 f1 f5 = ysl1 (View.read (Elt F) arg1.view f0) (View.read (Elt F) arg2.view f1) := eY _
    have e_v36 : sound_kernel.sl.v36 c arg1 arg2 arg5 arg6 f0 f1 f5 = ysl2 (View.read (Elt F) arg1.view f0) (View.read (Elt F) arg2.view f1) := eY _
    have e_v42 : sound_kernel.sl.v42 c arg1 arg2 arg5 arg6 f0 f1 f5 = ysl3 (View.read (Elt F) arg1.view f0) (View.read (Elt F) arg2.view f1) := eY _
    have e_v48 : sound_kernel.sl.v48 c arg1 arg2 arg5 arg6 f0 f1 f5 = ysl4 (View.read (Elt F) arg1.view f0) (View.read (Elt F) arg2.view f1) := eY _
    have e_v54 : sound_kernel.sl.v54 c arg1 arg2 arg5 arg6 f0 f1 f5 = ysl5 (View.read (Elt F) arg1.view f0) (View.read (Elt F) arg2.view f1) := eY _
    have e_v60 : sound_kernel.sl.v60 c arg1 arg2 arg5 arg6 f0 f1 f5 = ysl6 (View.read (Elt F) arg1.view f0) (View.read (Elt F) arg2.view f1) := eY _
    have e_v66 : sound_kernel.sl.v66 c arg1 arg2 arg5 arg6 f0 f1 f5 = ysl7 (View.read (Elt F) arg1.view f0) (View.read (Elt F) arg2.view f1) := eY _
    have e_v72 : sound_kernel.sl.v72 c arg1 arg2 arg5 arg6 f0 f1 f5 = ysl8 (View.read (Elt F) arg1.view f0) (View.read (Elt F) arg2.view f1) := eY _
    have e_v78 : sound_kernel.sl.v78 c arg1 arg2 arg5 arg6 f0 f1 f5 = ysl9 (View.read (Elt F) arg1.view f0) (View.read (Elt F) arg2.view f1) := eY _
    have e_v84 : sound_kernel.sl.v84 c arg1 arg2 arg5 arg6 f0 f1 f5 = ysl10 (View.read (Elt F) arg1.view f0) (View.read (Elt F) arg2.view f1) := eY _
    -- the accumulator, stored whole and read back whole
    have e_v : sound_kernel.sl.v c arg1 arg2 arg5 arg6 arg7 f0 f1 f5 = acc0 (View.read (Elt F) arg1.view f0) (View.read (Elt F) arg2.view f1) :=
      (readCov_head arg7.view hz2 _ _ _ _ rfl).trans (by rw [e_v25]; rfl)
    have e_v35 : sound_kernel.sl.v35 c arg1 arg2 arg5 arg6 arg7 f0 f1 f5 = acc1 (View.read (Elt F) arg1.view f0) (View.read (Elt F) arg2.view f1) :=
      (readCov_head arg7.view hz2 _ _ _ _ rfl).trans (by rw [e_v, e_v30]; rfl)
    have e_v41 : sound_kernel.sl.v41 c arg1 arg2 arg5 arg6 arg7 f0 f1 f5 = acc2 (View.read (Elt F) arg1.view f0) (View.read (Elt F) arg2.view f1) :=
      (readCov_head arg7.view hz2 _ _ _ _ rfl).trans (by rw [e_v35, e_v36]; rfl)
    have e_v47 : sound_kernel.sl.v47 c arg1 arg2 arg5 arg6 arg7 f0 f1 f5 = acc3 (View.read (Elt F) arg1.view f0) (View.read (Elt F) arg2.view f1) :=
      (readCov_head arg7.view hz2 _ _ _ _ rfl).trans (by rw [e_v41, e_v42]; rfl)
    have e_v53 : sound_kernel.sl.v53 c arg1 arg2 arg5 arg6 arg7 f0 f1 f5 = acc4 (View.read (Elt F) arg1.view f0) (View.read (Elt F) arg2.view f1) :=
      (readCov_head arg7.view hz2 _ _ _ _ rfl).trans (by rw [e_v47, e_v48]; rfl)
    have e_v59 : sound_kernel.sl.v59 c arg1 arg2 arg5 arg6 arg7 f0 f1 f5 = acc5 (View.read (Elt F) arg1.view f0) (View.read (Elt F) arg2.view f1) :=
      (readCov_head arg7.view hz2 _ _ _ _ rfl).trans (by rw [e_v53, e_v54]; rfl)
    have e_v65 : sound_kernel.sl.v65 c arg1 arg2 arg5 arg6 arg7 f0 f1 f5 = acc6 (View.read (Elt F) arg1.view f0) (View.read (Elt F) arg2.view f1) :=
      (readCov_head arg7.view hz2 _ _ _ _ rfl).trans (by rw [e_v59, e_v60]; rfl)
    have e_v71 : sound_kernel.sl.v71 c arg1 arg2 arg5 arg6 arg7 f0 f1 f5 = acc7 (View.read (Elt F) arg1.view f0) (View.read (Elt F) arg2.view f1) :=
      (readCov_head arg7.view hz2 _ _ _ _ rfl).trans (by rw [e_v65, e_v66]; rfl)
    have e_v77 : sound_kernel.sl.v77 c arg1 arg2 arg5 arg6 arg7 f0 f1 f5 = acc8 (View.read (Elt F) arg1.view f0) (View.read (Elt F) arg2.view f1) :=
      (readCov_head arg7.view hz2 _ _ _ _ rfl).trans (by rw [e_v71, e_v72]; rfl)
    have e_v83 : sound_kernel.sl.v83 c arg1 arg2 arg5 arg6 arg7 f0 f1 f5 = acc9 (View.read (Elt F) arg1.view f0) (View.read (Elt F) arg2.view f1) :=
      (readCov_head arg7.view hz2 _ _ _ _ rfl).trans (by rw [e_v77, e_v78]; rfl)
    have e_r : sound_kernel.sl.r c arg1 arg2 arg5 arg6 arg7 f0 f1 f5
        = k0_pay18 (acc9 (View.read (Elt F) arg1.view f0) (View.read (Elt F) arg2.view f1)) (ysl10 (View.read (Elt F) arg1.view f0) (View.read (Elt F) arg2.view f1)) := by
      show k0_pay18 (sound_kernel.sl.v83 c arg1 arg2 arg5 arg6 arg7 f0 f1 f5) (sound_kernel.sl.v84 c arg1 arg2 arg5 arg6 f0 f1 f5) = _
      rw [e_v83, e_v84]
    have e_v89 : sound_kernel.sl.v89 c arg1 arg2 arg5 arg6 arg7 f0 f1 f5 = accAll (View.read (Elt F) arg1.view f0) (View.read (Elt F) arg2.view f1) :=
      (readCov_head arg7.view hz2 _ _ _ _ rfl).trans (by rw [e_r]; rfl)
    rw [View.read_writes_eq_canon _ _ _ (fun y => ⟨_, List.mem_singleton_self _, View.mem_set_unit_zero hz3 inb_S1x2000x128_S1x2000x128_0_0_0 y⟩),
      View.canon_unit_zero hz3, e_v89, r2]
    rfl
  isplitl [H5]
  · iexists _, _; isplitr
    swap; · iexact H5
    ipureintro; rfl
  isplitl [H6]
  · iexists _, _; isplitr
    swap; · iexact H6
    ipureintro; rfl
  iexists _, _; isplitr
  swap; · iexact H7
  ipureintro; rfl

end Cert.KernelIdeal.Body

end
-- ==== Proof.FrameRun.lean ====
/-
  The proof data of the one pipeline, the body obligation, the run of the whole program and its frame.

  After the body at grid point `t` each input's staging buffer holds its block as before, and the output's holds
  `Block.blockOut` of the three input blocks (`dats`). The pipeline's invariant is the plain one: the three scratch
  buffers at some contents and the generator register at some state — the body is handed them and gives them back
  (`PhiA_eq` names them). The program continues after the region with one host line (a slice of the result), so the
  run is the library's launch theorem for a program with a host tail.
-/
import proofs.«122783_j28260884808343_2_alg».proof.Proof.BodyRun
import Idealize.ShloMosaic.Lib.Pipeline.FrameBody
import Idealize.ShloMosaic.Lib.Pipeline.FrameSuffix

set_option maxRecDepth 16384

noncomputable section

namespace Cert.KernelIdeal.Body

open Cert.KernelIdeal Cert.KernelIdeal.Gen Cert.KernelIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers inside the invariant -/

abbrev scM5 : Memref sig .tc .vmem S2010x512 .bf16 := Memref.whole cc0_scratch0
abbrev scM6 : Memref sig .tc .vmem S2010x1408 .f32 := Memref.whole cc0_scratch1
abbrev scM7 : Memref sig .tc .vmem S2000x128 .f32 := Memref.whole cc0_scratch2

/-- The invariant with the three scratch buffers as memrefs owned at some contents. -/
theorem PhiA_eq (c : Dev nD) :
    (Pipeline.ΦA spec0 c : sProp 𝕄)
      = iprop(iprop((∃ d, owns (c : Thread nD τ) scM5 fullShare d) ∗ (∃ d, owns (c : Thread nD τ) scM6 fullShare d)
          ∗ (∃ d, owns (c : Thread nD τ) scM7 fullShare d)) ∗ (∃ r, prngReg c r)) := by
  unfold Pipeline.ΦA; rw [scopedRest0_eq]; simp only [scM5, scM6, scM7, owns_whole]; try rfl

/-! ## The pipeline's proof data -/

/-- The arrays as the region finds them; after the body at point `t` the inputs' buffers at their blocks and the
    output's at `blockOut` of them; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the invariant hands over the scratch buffers, so
    `sound_kernel` applies; the scratch buffers go back into the invariant, the core's debt passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA_eq]
  iintro ⟨⟨⟨H5, H6, H7⟩, Hr⟩, Ho, ⟨%d0, H0⟩, ⟨%d1, H1⟩, ⟨%d2, H2⟩, ⟨%d3, H3⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  iintro ⟨H0, H1, H2, H3, H5, H6, H7⟩
  isplitl [H5 H6 H7 Hr]
  · isplitr [Hr]
    · isplitl [H5]; · iexact H5
      isplitl [H6]; · iexact H6
      iexact H7
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the line after the region
    leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelBlockBits.lean ====
/-
  (The word-level program's copy: the same statements and proofs, over the program as printed; nothing here
  depends on the float instance.)

  What one grid point of the kernel leaves in its output block, as a function of its three input blocks: the
  batch's frames `x0 : [1, 2000, 512]`, the packed weights `x1 : [512, 1408]` (eleven lane-groups of 128) and the
  padded bias `x2 : [1, 128]`.

  The frames are laid into an edge-replicated buffer of 2010 rows (`padded`: row `i` holds frame `clamp (i - 5)`),
  multiplied ONCE by the packed weights (`ymat : [2010, 1408]`), and the eleven channels' contributions — channel
  `c` is the block of `ymat` at rows `10 - c …`, lanes `128 c …` — are added up one after the other (`acc0 … acc9`,
  `accAll`); the bias is added last (`blockOut`). Everything here is stated through the body's own pure operations,
  at any float instance.
-/
import proofs.«122783_j28260884808343_2_alg».proof.Proof.Gen.Kernel.Skeleton
import proofs.«122783_j28260884808343_2_alg».proof.Proof.PadRow
import Idealize.ShloMosaic.Lib.Pipeline.Value

noncomputable section

namespace Cert.Kernel.Block

open Cert.Kernel Cert.Kernel.Gen
open Idealize.ShloMosaic Idealize.ShloMosaic.ValueIdx

variable {F : FTy → Type} [FloatOps F]

/-- The edge-replicated frames: row `i` is frame `i - 5` clamped into `[0, 1999]`. -/
def padded (x0 : Vec F S1x2000x512 .f32) : Vec F S2010x512 .bf16 :=
  fun y =>
    have yi : Fin 2010 := y 0
    have yj : Fin 512 := y 1
    k0_pay4 x0 (ix2 (WindowedLinear.Rows.padRow yi) yj)

/-- The one wide product: padded frames times packed weights. -/
def ymat (x0 : Vec F S1x2000x512 .f32) (x1 : Vec F S512x1408 .bf16) : FVec F S2010x1408 .f32 :=
  k0_pay7 (padded x0) x1

/-- Channel 0's block of the product: rows `10 …`, lanes `0 …`. -/
def ysl0 (x0 : Vec F S1x2000x512 .f32) (x1 : Vec F S512x1408 .bf16) : Vec F S2000x128 .f32 :=
  View.ld (Val := Elt F) (e' := .f32) (ymat x0 x1) (Rect.unit (s := S2010x1408) ![10, 0] S2000x128.size inb_S2010x1408_S2000x128_10_0)

/-- Channel 1's block of the product: rows `9 …`, lanes `128 …`. -/
def ysl1 (x0 : Vec F S1x2000x512 .f32) (x1 : Vec F S512x1408 .bf16) : Vec F S2000x128 .f32 :=
  View.ld (Val := Elt F) (e' := .f32) (ymat x0 x1) (Rect.unit (s := S2010x1408) ![9, 128] S2000x128.size inb_S2010x1408_S2000x128_9_128)

/-- Channel 2's block of the product: rows `8 …`, lanes `256 …`. -/
def ysl2 (x0 : Vec F S1x2000x512 .f32) (x1 : Vec F S512x1408 .bf16) : Vec F S2000x128 .f32 :=
  View.ld (Val := Elt F) (e' := .f32) (ymat x0 x1) (Rect.unit (s := S2010x1408) ![8, 256] S2000x128.size inb_S2010x1408_S2000x128_8_256)

/-- Channel 3's block of the product: rows `7 …`, lanes `384 …`. -/
def ysl3 (x0 : Vec F S1x2000x512 .f32) (x1 : Vec F S512x1408 .bf16) : Vec F S2000x128 .f32 :=
  View.ld (Val := Elt F) (e' := .f32) (ymat x0 x1) (Rect.unit (s := S2010x1408) ![7, 384] S2000x128.size inb_S2010x1408_S2000x128_7_384)

/-- Channel 4's block of the product: rows `6 …`, lanes `512 …`. -/
def ysl4 (x0 : Vec F S1x2000x512 .f32) (x1 : Vec F S512x1408 .bf16) : Vec F S2000x128 .f32 :=
  View.ld (Val := Elt F) (e' := .f32) (ymat x0 x1) (Rect.unit (s := S2010x1408) ![6, 512] S2000x128.size inb_S2010x1408_S2000x128_6_512)

/-- Channel 5's block of the product: rows `5 …`, lanes `640 …`. -/
def ysl5 (x0 : Vec F S1x2000x512 .f32) (x1 : Vec F S512x1408 .bf16) : Vec F S2000x128 .f32 :=
  View.ld (Val := Elt F) (e' := .f32) (ymat x0 x1) (Rect.unit (s := S2010x1408) ![5, 640] S2000x128.size inb_S2010x1408_S2000x128_5_640)

/-- Channel 6's block of the product: rows `4 …`, lanes `768 …`. -/
def ysl6 (x0 : Vec F S1x2000x512 .f32) (x1 : Vec F S512x1408 .bf16) : Vec F S2000x128 .f32 :=
  View.ld (Val := Elt F) (e' := .f32) (ymat x0 x1) (Rect.unit (s := S2010x1408) ![4, 768] S2000x128.size inb_S2010x1408_S2000x128_4_768)

/-- Channel 7's block of the product: rows `3 …`, lanes `896 …`. -/
def ysl7 (x0 : Vec F S1x2000x512 .f32) (x1 : Vec F S512x1408 .bf16) : Vec F S2000x128 .f32 :=
  View.ld (Val := Elt F) (e' := .f32) (ymat x0 x1) (Rect.unit (s := S2010x1408) ![3, 896] S2000x128.size inb_S2010x1408_S2000x128_3_896)

/-- Channel 8's block of the product: rows `2 …`, lanes `1024 …`. -/
def ysl8 (x0 : Vec F S1x2000x512 .f32) (x1 : Vec F S512x1408 .bf16) : Vec F S2000x128 .f32 :=
  View.ld (Val := Elt F) (e' := .f32) (ymat x0 x1) (Rect.unit (s := S2010x1408) ![2, 1024] S2000x128.size inb_S2010x1408_S2000x128_2_1024)

/-- Channel 9's block of the product: rows `1 …`, lanes `1152 …`. -/
def ysl9 (x0 : Vec F S1x2000x512 .f32) (x1 : Vec F S512x1408 .bf16) : Vec F S2000x128 .f32 :=
  View.ld (Val := Elt F) (e' := .f32) (ymat x0 x1) (Rect.unit (s := S2010x1408) ![1, 1152] S2000x128.size inb_S2010x1408_S2000x128_1_1152)

/-- Channel 10's block of the product: rows `0 …`, lanes `1280 …`. -/
def ysl10 (x0 : Vec F S1x2000x512 .f32) (x1 : Vec F S512x1408 .bf16) : Vec F S2000x128 .f32 :=
  View.ld (Val := Elt F) (e' := .f32) (ymat x0 x1) (Rect.unit (s := S2010x1408) ![0, 1280] S2000x128.size inb_S2010x1408_S2000x128_0_1280)

/-- The running sum after channel 0, -/
def acc0 (x0 : Vec F S1x2000x512 .f32) (x1 : Vec F S512x1408 .bf16) : Vec F S2000x128 .f32 := k0_pay8 (ysl0 x0 x1)
/-- after channel 1, -/
def acc1 (x0 : Vec F S1x2000x512 .f32) (x1 : Vec F S512x1408 .bf16) : Vec F S2000x128 .f32 := k0_pay9 (acc0 x0 x1) (ysl1 x0 x1)
/-- after channel 2, -/
def acc2 (x0 : Vec F S1x2000x512 .f32) (x1 : Vec F S512x1408 .bf16) : Vec F S2000x128 .f32 := k0_pay10 (acc1 x0 x1) (ysl2 x0 x1)
/-- after channel 3, -/
def acc3 (x0 : Vec F S1x2000x512 .f32) (x1 : Vec F S512x1408 .bf16) : Vec F S2000x128 .f32 := k0_pay11 (acc2 x0 x1) (ysl3 x0 x1)
/-- after channel 4, -/
def acc4 (x0 : Vec F S1x2000x512 .f32) (x1 : Vec F S512x1408 .bf16) : Vec F S2000x128 .f32 := k0_pay12 (acc3 x0 x1) (ysl4 x0 x1)
/-- after channel 5, -/
def acc5 (x0 : Vec F S1x2000x512 .f32) (x1 : Vec F S512x1408 .bf16) : Vec F S2000x128 .f32 := k0_pay13 (acc4 x0 x1) (ysl5 x0 x1)
/-- after channel 6, -/
def acc6 (x0 : Vec F S1x2000x512 .f32) (x1 : Vec F S512x1408 .bf16) : Vec F S2000x128 .f32 := k0_pay14 (acc5 x0 x1) (ysl6 x0 x1)
/-- after channel 7, -/
def acc7 (x0 : Vec F S1x2000x512 .f32) (x1 : Vec F S512x1408 .bf16) : Vec F S2000x128 .f32 := k0_pay15 (acc6 x0 x1) (ysl7 x0 x1)
/-- after channel 8, -/
def acc8 (x0 : Vec F S1x2000x512 .f32) (x1 : Vec F S512x1408 .bf16) : Vec F S2000x128 .f32 := k0_pay16 (acc7 x0 x1) (ysl8 x0 x1)
/-- after channel 9, -/
def acc9 (x0 : Vec F S1x2000x512 .f32) (x1 : Vec F S512x1408 .bf16) : Vec F S2000x128 .f32 := k0_pay17 (acc8 x0 x1) (ysl9 x0 x1)
/-- and after all eleven channels. -/
def accAll (x0 : Vec F S1x2000x512 .f32) (x1 : Vec F S512x1408 .bf16) : Vec F S2000x128 .f32 :=
  k0_pay1 (k0_pay18 (acc9 x0 x1) (ysl10 x0 x1))

/-- The output block: the eleven channels' sum plus the bias, on every row. -/
def blockOut (x0 : Vec F S1x2000x512 .f32) (x1 : Vec F S512x1408 .bf16) (x2 : Vec F S1x128 .f32) : Vec F S1x2000x128 .f32 :=
  k0_pay2 (accAll x0 x1) x2

end Cert.Kernel.Block

end
-- ==== Proof.BodyRunBits.lean ====
/-
  (The word-level program's copy: the same statements and proofs, over the program as printed; nothing here
  depends on the float instance.)

  The kernel body at one grid point, and the frame of the whole program from it.

  On whole staging buffers — the batch's frames at `x0`, the packed weights at `x1`, the padded bias at `x2`, the
  output's and the three scratch buffers at anything — the body runs to the end leaving the inputs as they were and the
  output's buffer at `Block.blockOut x0 x1 x2` (`sound_kernel`). What the run finds in each buffer is read back level by
  level: the padded frames are three overlapping row stores (`Rows.read_padded`), the wide product is one store of the
  whole buffer read through eleven rectangles (`Rows.readCov_sub`), the accumulator is stored whole and read back whole
  eleven times (`Rows.readCov_head`). The scratch buffers are handed over and taken back at unnamed contents, so the
  pipeline's invariant is the plain one; the proof data names the output block at every point (`dats`), and the
  library's launch theorem gives the run of the whole program (`run_main`) and its frame (`frame`).
-/
import proofs.«122783_j28260884808343_2_alg».proof.Proof.Gen.Kernel.Frame
import proofs.«122783_j28260884808343_2_alg».proof.Proof.Gen.Kernel.Skeleton
import proofs.«122783_j28260884808343_2_alg».proof.Proof.KernelBlockBits
import proofs.«122783_j28260884808343_2_alg».proof.Proof.ReadBack
import Idealize.ShloMosaic.Lib.Pipeline.Frame
import Idealize.ShloMosaic.Lib.Exec.Geometry
import Idealize.ShloMosaic.Lib.Tactic

set_option maxRecDepth 16384

noncomputable section

namespace Cert.Kernel.Body

open Cert.Kernel Cert.Kernel.Gen Cert.Kernel.Block
open WindowedLinear.Rows
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Small facts -/

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-- The five rows stored at the top are all frame 0, -/
theorem pay5_row (x0 : Vec F S1x2000x512 .f32) (l : Fin 5) (j : Fin 512) :
    k0_pay5 x0 (ix2 l j) = k0_pay4 x0 (ix2 ⟨0, by omega⟩ j) := by
  unfold k0_pay5 k0_pay4
  rw [shapeCast_self, shapeCast_self, shapeCast_self,
    broadcastTo_apply _ _ (ix2 l j) (ix2 (⟨0, by omega⟩ : Fin 1) j) (by
      intro a; match a with | ⟨0, _⟩ => rfl | ⟨1, _⟩ => rfl),
    extractStridedSlice_apply _ _ _ (ix2 (⟨0, by omega⟩ : Fin 1) j) (ix2 (⟨0, by omega⟩ : Fin 2000) j) (by
      intro a; match a with | ⟨0, _⟩ => rfl | ⟨1, _⟩ => exact (Nat.zero_add _).symm)]
/-- and the five rows stored at the bottom are all frame 1999. -/
theorem pay6_row (x0 : Vec F S1x2000x512 .f32) (l : Fin 5) (j : Fin 512) :
    k0_pay6 x0 (ix2 l j) = k0_pay4 x0 (ix2 ⟨1999, by omega⟩ j) := by
  unfold k0_pay6 k0_pay4
  rw [shapeCast_self, shapeCast_self, shapeCast_self,
    broadcastTo_apply _ _ (ix2 l j) (ix2 (⟨0, by omega⟩ : Fin 1) j) (by
      intro a; match a with | ⟨0, _⟩ => rfl | ⟨1, _⟩ => rfl),
    extractStridedSlice_apply _ _ _ (ix2 (⟨0, by omega⟩ : Fin 1) j) (ix2 (⟨1999, by omega⟩ : Fin 2000) j) (by
      intro a; match a with | ⟨0, _⟩ => rfl | ⟨1, _⟩ => exact (Nat.zero_add _).symm)]

/-! ## The body's triple -/

set_option maxHeartbeats 4000000 in
/-- The kernel body on whole memrefs: the inputs' at read contents `x0`, `x1`, `x2`, the output's and the scratch
    buffers' at anything; it runs to the continuation holding the inputs' as they were, the output's at
    `blockOut x0 x1 x2`, the scratch buffers' at some contents. -/
theorem sound_kernel (c : Dev nD) (E : Set ℕ) (i : grid0.Coords)
    (arg1 : Memref sig .tc .vmem S1x2000x512 .f32) (harg1 : arg1.IsWhole) (arg2 : Memref sig .tc .vmem S512x1408 .bf16) (harg2 : arg2.IsWhole)
    (arg3 : Memref sig .tc .vmem S1x128 .f32) (harg3 : arg3.IsWhole) (arg4 : Memref sig .tc .vmem S1x2000x128 .f32) (harg4 : arg4.IsWhole)
    (arg5 : Memref sig .tc .vmem S2010x512 .bf16) (harg5 : arg5.IsWhole) (arg6 : Memref sig .tc .vmem S2010x1408 .f32) (harg6 : arg6.IsWhole)
    (arg7 : Memref sig .tc .vmem S2000x128 .f32) (harg7 : arg7.IsWhole)
    (x0 : Vec F S1x2000x512 .f32) (x1 : Vec F S512x1408 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2) ∗ (∃ d, owns (c : Thread nD τ) arg5 fullShare d)
            ∗ (∃ d, owns (c : Thread nD τ) arg6 fullShare d) ∗ (∃ d, owns (c : Thread nD τ) arg7 fullShare d)) -∗ K ⟨⟩))
      ⊢ wp frame (wpE (defs₀ (F := F)) Variants.none c none) E (cc0__concat_linear_kernel i arg1 harg1 arg2 harg2 arg3 harg3 arg4 harg4 arg5 harg5 arg6 harg6 arg7 harg7) K := by
  simp only [cc0__concat_linear_kernel_eq_skeleton]; unfold cc0__concat_linear_kernel_skel
  unfold owns
  iintro ⟨⟨%f0, %hf0, H0⟩, ⟨%f1, %hf1, H1⟩, ⟨%f2, %hf2, H2⟩, ⟨%d4, %f4, -, H4⟩, ⟨%d5, %f5, -, H5⟩, ⟨%d6, %f6, -, H6⟩, ⟨%d7, %f7, -, H7⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    -- the three inputs, loaded whole
    have r0 : View.readAt (Elt F) arg1.view (Rect.unit (s := S1x2000x512) ![0, 0, 0] S1x2000x512.size inb_S1x2000x512_S1x2000x512_0_0_0).toLoadRect f0
        = View.read (Elt F) arg1.view f0 := readAt_whole _ _ hz3 _
    have r1 : View.readAt (Elt F) arg2.view (Rect.unit (s := S512x1408) ![0, 0] S512x1408.size inb_S512x1408_S512x1408_0_0).toLoadRect f1
        = View.read (Elt F) arg2.view f1 := readAt_whole _ _ hz2 _
    have r2 : View.readAt (Elt F) arg3.view (Rect.unit (s := S1x128) ![0, 0] S1x128.size inb_S1x128_S1x128_0_0).toLoadRect f2
        = View.read (Elt F) arg3.view f2 := readAt_whole _ _ hz2 _
    -- the edge-replicated frames, read back whole after the three row stores
    have e18 : sound_kernel.sl.v18 c arg1 arg5 f0 f5 = padded (View.read (Elt F) arg1.view f0) := by
      funext y
      obtain ⟨yi, yj, rfl⟩ : ∃ (yi : Fin 2010) (yj : Fin 512), y = ix2 yi yj := ⟨y 0, y 1, eq_ix2 y⟩
      show View.readAt (Elt F) arg5.view (Rect.unit (s := S2010x512) ![0, 0] S2010x512.size inb_S2010x512_S2010x512_0_0).toLoadRect
          (arg5.view.writes (Elt F) arg5.view.junk (sound_kernel.sl.H5_3 c arg1 arg5 f0 f5)) (ix2 yi yj) = _
      rw [readAt_whole _ _ hz2 _]
      refine (read_padded arg5.view f5 arg5.view.junk _ _ _ (pay5_row _) (pay6_row _)
        inb_S2010x512_S2002x512_4_0 inb_S2010x512_S6x512_0_0 inb_S2010x512_S6x512_2004_0
        slices_S2002x512_S2000x512_1_0 slices_S6x512_S5x512_0_0 slices_S6x512_S5x512_1_0
        (sound_kernel.sl.H5_1 c arg1 arg5 f0 f5) (sound_kernel.sl.H5_2 c arg1 arg5 f0 f5) (sound_kernel.sl.H5_3 c arg1 arg5 f0 f5)
        rfl rfl rfl yi yj).trans ?_
      rw [r0]; rfl
    -- the wide product, read through any rectangle
    have eY : ∀ r : Rect S2010x1408, arg6.view.readCov (sound_kernel.sl.H6_1 c arg1 arg2 arg5 f0 f1 f5) r.toLoadRect
        = View.ld (Val := Elt F) (e' := .f32) (ymat (View.read (Elt F) arg1.view f0) (View.read (Elt F) arg2.view f1)) r := fun r => by
      refine (readCov_sub arg6.view hz2 _ _ (sound_kernel.sl.H6_1 c arg1 arg2 arg5 f0 f1 f5) rfl r).trans ?_
      rw [e18, r1]; rfl
    have e_v25 : sound_kernel.sl.v25 c arg1 arg2 arg5 arg6 f0 f1 f5 = ysl0 (View.read (Elt F) arg1.view f0) (View.read (Elt F) arg2.view f1) := eY _
    have e_v30 : sound_kernel.sl.v30 c arg1 arg2 arg5 arg6 f0 f1 f5 = ysl1 (View.read (Elt F) arg1.view f0) (View.read (Elt F) arg2.view f1) := eY _
    have e_v36 : sound_kernel.sl.v36 c arg1 arg2 arg5 arg6 f0 f1 f5 = ysl2 (View.read (Elt F) arg1.view f0) (View.read (Elt F) arg2.view f1) := eY _
    have e_v42 : sound_kernel.sl.v42 c arg1 arg2 arg5 arg6 f0 f1 f5 = ysl3 (View.read (Elt F) arg1.view f0) (View.read (Elt F) arg2.view f1) := eY _
    have e_v48 : sound_kernel.sl.v48 c arg1 arg2 arg5 arg6 f0 f1 f5 = ysl4 (View.read (Elt F) arg1.view f0) (View.read (Elt F) arg2.view f1) := eY _
    have e_v54 : sound_kernel.sl.v54 c arg1 arg2 arg5 arg6 f0 f1 f5 = ysl5 (View.read (Elt F) arg1.view f0) (View.read (Elt F) arg2.view f1) := eY _
    have e_v60 : sound_kernel.sl.v60 c arg1 arg2 arg5 arg6 f0 f1 f5 = ysl6 (View.read (Elt F) arg1.view f0) (View.read (Elt F) arg2.view f1) := eY _
    have e_v66 : sound_kernel.sl.v66 c arg1 arg2 arg5 arg6 f0 f1 f5 = ysl7 (View.read (Elt F) arg1.view f0) (View.read (Elt F) arg2.view f1) := eY _
    have e_v72 : sound_kernel.sl.v72 c arg1 arg2 arg5 arg6 f0 f1 f5 = ysl8 (View.read (Elt F) arg1.view f0) (View.read (Elt F) arg2.view f1) := eY _
    have e_v78 : sound_kernel.sl.v78 c arg1 arg2 arg5 arg6 f0 f1 f5 = ysl9 (View.read (Elt F) arg1.view f0) (View.read (Elt F) arg2.view f1) := eY _
    have e_v84 : sound_kernel.sl.v84 c arg1 arg2 arg5 arg6 f0 f1 f5 = ysl10 (View.read (Elt F) arg1.view f0) (View.read (Elt F) arg2.view f1) := eY _
    -- the accumulator, stored whole and read back whole
    have e_v : sound_kernel.sl.v c arg1 arg2 arg5 arg6 arg7 f0 f1 f5 = acc0 (View.read (Elt F) arg1.view f0) (View.read (Elt F) arg2.view f1) :=
      (readCov_head arg7.view hz2 _ _ _ _ rfl).trans (by rw [e_v25]; rfl)
    have e_v35 : sound_kernel.sl.v35 c arg1 arg2 arg5 arg6 arg7 f0 f1 f5 = acc1 (View.read (Elt F) arg1.view f0) (View.read (Elt F) arg2.view f1) :=
      (readCov_head arg7.view hz2 _ _ _ _ rfl).trans (by rw [e_v, e_v30]; rfl)
    have e_v41 : sound_kernel.sl.v41 c arg1 arg2 arg5 arg6 arg7 f0 f1 f5 = acc2 (View.read (Elt F) arg1.view f0) (View.read (Elt F) arg2.view f1) :=
      (readCov_head arg7.view hz2 _ _ _ _ rfl).trans (by rw [e_v35, e_v36]; rfl)
    have e_v47 : sound_kernel.sl.v47 c arg1 arg2 arg5 arg6 arg7 f0 f1 f5 = acc3 (View.read (Elt F) arg1.view f0) (View.read (Elt F) arg2.view f1) :=
      (readCov_head arg7.view hz2 _ _ _ _ rfl).trans (by rw [e_v41, e_v42]; rfl)
    have e_v53 : sound_kernel.sl.v53 c arg1 arg2 arg5 arg6 arg7 f0 f1 f5 = acc4 (View.read (Elt F) arg1.view f0) (View.read (Elt F) arg2.view f1) :=
      (readCov_head arg7.view hz2 _ _ _ _ rfl).trans (by rw [e_v47, e_v48]; rfl)
    have e_v59 : sound_kernel.sl.v59 c arg1 arg2 arg5 arg6 arg7 f0 f1 f5 = acc5 (View.read (Elt F) arg1.view f0) (View.read (Elt F) arg2.view f1) :=
      (readCov_head arg7.view hz2 _ _ _ _ rfl).trans (by rw [e_v53, e_v54]; rfl)
    have e_v65 : sound_kernel.sl.v65 c arg1 arg2 arg5 arg6 arg7 f0 f1 f5 = acc6 (View.read (Elt F) arg1.view f0) (View.read (Elt F) arg2.view f1) :=
      (readCov_head arg7.view hz2 _ _ _ _ rfl).trans (by rw [e_v59, e_v60]; rfl)
    have e_v71 : sound_kernel.sl.v71 c arg1 arg2 arg5 arg6 arg7 f0 f1 f5 = acc7 (View.read (Elt F) arg1.view f0) (View.read (Elt F) arg2.view f1) :=
      (readCov_head arg7.view hz2 _ _ _ _ rfl).trans (by rw [e_v65, e_v66]; rfl)
    have e_v77 : sound_kernel.sl.v77 c arg1 arg2 arg5 arg6 arg7 f0 f1 f5 = acc8 (View.read (Elt F) arg1.view f0) (View.read (Elt F) arg2.view f1) :=
      (readCov_head arg7.view hz2 _ _ _ _ rfl).trans (by rw [e_v71, e_v72]; rfl)
    have e_v83 : sound_kernel.sl.v83 c arg1 arg2 arg5 arg6 arg7 f0 f1 f5 = acc9 (View.read (Elt F) arg1.view f0) (View.read (Elt F) arg2.view f1) :=
      (readCov_head arg7.view hz2 _ _ _ _ rfl).trans (by rw [e_v77, e_v78]; rfl)
    have e_r : sound_kernel.sl.r c arg1 arg2 arg5 arg6 arg7 f0 f1 f5
        = k0_pay18 (acc9 (View.read (Elt F) arg1.view f0) (View.read (Elt F) arg2.view f1)) (ysl10 (View.read (Elt F) arg1.view f0) (View.read (Elt F) arg2.view f1)) := by
      show k0_pay18 (sound_kernel.sl.v83 c arg1 arg2 arg5 arg6 arg7 f0 f1 f5) (sound_kernel.sl.v84 c arg1 arg2 arg5 arg6 f0 f1 f5) = _
      rw [e_v83, e_v84]
    have e_v89 : sound_kernel.sl.v89 c arg1 arg2 arg5 arg6 arg7 f0 f1 f5 = accAll (View.read (Elt F) arg1.view f0) (View.read (Elt F) arg2.view f1) :=
      (readCov_head arg7.view hz2 _ _ _ _ rfl).trans (by rw [e_r]; rfl)
    rw [View.read_writes_eq_canon _ _ _ (fun y => ⟨_, List.mem_singleton_self _, View.mem_set_unit_zero hz3 inb_S1x2000x128_S1x2000x128_0_0_0 y⟩),
      View.canon_unit_zero hz3, e_v89, r2]
    rfl
  isplitl [H5]
  · iexists _, _; isplitr
    swap; · iexact H5
    ipureintro; rfl
  isplitl [H6]
  · iexists _, _; isplitr
    swap; · iexact H6
    ipureintro; rfl
  iexists _, _; isplitr
  swap; · iexact H7
  ipureintro; rfl

end Cert.Kernel.Body

end
-- ==== Proof.FrameRunBits.lean ====
/-
  (The word-level program's copy: the same statements and proofs, over the program as printed; nothing here
  depends on the float instance.)

  The proof data of the one pipeline, the body obligation, the run of the whole program and its frame.

  After the body at grid point `t` each input's staging buffer holds its block as before, and the output's holds
  `Block.blockOut` of the three input blocks (`dats`). The pipeline's invariant is the plain one: the three scratch
  buffers at some contents and the generator register at some state — the body is handed them and gives them back
  (`PhiA_eq` names them). The program continues after the region with one host line (a slice of the result), so the
  run is the library's launch theorem for a program with a host tail.
-/
import proofs.«122783_j28260884808343_2_alg».proof.Proof.BodyRunBits
import Idealize.ShloMosaic.Lib.Pipeline.FrameBody
import Idealize.ShloMosaic.Lib.Pipeline.FrameSuffix

set_option maxRecDepth 16384

noncomputable section

namespace Cert.Kernel.Body

open Cert.Kernel Cert.Kernel.Gen Cert.Kernel.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers inside the invariant -/

abbrev scM5 : Memref sig .tc .vmem S2010x512 .bf16 := Memref.whole cc0_scratch0
abbrev scM6 : Memref sig .tc .vmem S2010x1408 .f32 := Memref.whole cc0_scratch1
abbrev scM7 : Memref sig .tc .vmem S2000x128 .f32 := Memref.whole cc0_scratch2

/-- The invariant with the three scratch buffers as memrefs owned at some contents. -/
theorem PhiA_eq (c : Dev nD) :
    (Pipeline.ΦA spec0 c : sProp 𝕄)
      = iprop(iprop((∃ d, owns (c : Thread nD τ) scM5 fullShare d) ∗ (∃ d, owns (c : Thread nD τ) scM6 fullShare d)
          ∗ (∃ d, owns (c : Thread nD τ) scM7 fullShare d)) ∗ (∃ r, prngReg c r)) := by
  unfold Pipeline.ΦA; rw [scopedRest0_eq]; simp only [scM5, scM6, scM7, owns_whole]; try rfl

/-! ## The pipeline's proof data -/

/-- The arrays as the region finds them; after the body at point `t` the inputs' buffers at their blocks and the
    output's at `blockOut` of them; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockOut (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the invariant hands over the scratch buffers, so
    `sound_kernel` applies; the scratch buffers go back into the invariant, the core's debt passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA_eq]
  iintro ⟨⟨⟨H5, H6, H7⟩, Hr⟩, Ho, ⟨%d0, H0⟩, ⟨%d1, H1⟩, ⟨%d2, H2⟩, ⟨%d3, H3⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  iintro ⟨H0, H1, H2, H3, H5, H6, H7⟩
  isplitl [H5 H6 H7 Hr]
  · isplitr [Hr]
    · isplitl [H5]; · iexact H5
      isplitl [H6]; · iexact H6
      iexact H7
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the line after the region
    leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BlockValue.lean ====
/-
  What one grid point leaves in its output block, entry by entry, over the extended reals.

  The edge-replicated buffer's row `i` is frame `clamp (i - 5)`; the one wide product's entry `(i, j)` is the sum over
  the 512 features of buffer row `i` against column `j` of the packed weights; channel `ch`'s block of the product,
  rows `10 - ch …`, lanes `128 ch …`, therefore holds at `(r, o)` the frame `clamp (r + 5 - ch)` against the
  channel's lane-group at lane `o`. The eleven blocks are added one after the other and the bias lane is added last,
  so the output block's entry `(r, o)` is the sum over the channels and the features plus the bias lane (addition of
  extended reals is associative and commutative, which is all that is used).

  When the packed weights and bias are the zero-padded layouts of `W : [41, 5632]` and `b : [41]`, the entry at an
  output lane `o < 41` is the windowed linear layer `∑ k, x (clamp (r + 5 - k / 512), k % 512) * W (o, k) + b o`: the
  double sum over channels and features is the single sum over the flattened feature index `k = ch * 512 + d`.
-/
import proofs.«122783_j28260884808343_2_alg».proof.Proof.KernelBlock
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Cert.KernelIdeal Cert.KernelIdeal.Gen
open Idealize.ShloMosaic Idealize.ShloMosaic.ValueIdx
open WindowedLinear WindowedLinear.Rows
open scoped BigOperators

/-- The product's dimension numbers: rows times features, features times columns. -/
abbrev dotD : DotDims S2010x512 S512x1408 S2010x1408 := dot_S2010x512_S512x1408_S2010x1408_1_0_0_1_n_n

/-- The frames' payload at row `f`, feature `d`: the frame's entry (the leading unit axis dropped, the format change the
    identity on extended reals). -/
theorem pay4_apply (x0 : Vec Ideal S1x2000x512 .f32) (f : Fin 2000) (d : Fin 512) :
    k0_pay4 (F := Ideal) x0 (ix2 f d) = x0 (ix3 (0 : Fin 1) f d) := by
  show shapeCast S2000x512 (truncf (F := Ideal) .bf16 (shapeCast S2000x512 x0 shapeCasts_S1x2000x512_S2000x512 : FVec Ideal S2000x512 .f32) bitsLt_bf16_f32)
      shapeCasts_S2000x512_S2000x512 (ix2 f d) = _
  rw [shapeCast_self]
  refine (truncf_apply (φ := .f32) (ψ := .bf16) _ bitsLt_bf16_f32 _).trans ?_
  exact shapeCast_1ab_ab_apply _ _ f d

/-- Row `i` of the edge-replicated buffer is frame `padRow i`. -/
theorem padded_apply (x0 : Vec Ideal S1x2000x512 .f32) (i : Fin 2010) (d : Fin 512) :
    Block.padded (F := Ideal) x0 (ix2 i d) = x0 (ix3 (0 : Fin 1) (padRow i) d) :=
  pay4_apply x0 (padRow i) d

theorem lhs_row (j : S2010x1408.Idx) (q : dotD.contr.Idx) : (dotD.lhsIdx j q 0).val = (j 0).val := by
  unfold DotDims.lhsIdx
  rw [dif_neg (show ¬(0 : Fin S2010x512.rank) ∈ dotD.lhsBatch by decide),
    dif_pos (show (0 : Fin S2010x512.rank) ∈ dotD.lhsNonContracting by decide)]
  rfl
theorem rhs_col (j : S2010x1408.Idx) (q : dotD.contr.Idx) : (dotD.rhsIdx j q 1).val = (j 1).val := by
  unfold DotDims.rhsIdx
  rw [dif_neg (show ¬(1 : Fin S512x1408.rank) ∈ dotD.rhsBatch by decide),
    dif_pos (show (1 : Fin S512x1408.rank) ∈ dotD.rhsNonContracting by decide)]
  rfl

/-- The wide product at row `i`, column `j`: the sum over the 512 features of row `i` times column `j`. -/
theorem pay7_apply (P : Vec Ideal S2010x512 .bf16) (x1 : Vec Ideal S512x1408 .bf16) (i : Fin 2010) (j : Fin 1408) :
    k0_pay7 (F := Ideal) P x1 (ix2 i j) = ∑ d : Fin 512, P (ix2 i d) * x1 (ix2 d j) := by
  show shapeCast S2010x1408
      (matmul (F := Ideal) dotD none P (shapeCast S512x1408 x1 shapeCasts_S512x1408_S512x1408 : FVec Ideal S512x1408 .bf16) (constant (F := Ideal) S2010x1408 .f32 0x00000000#32))
      shapeCasts_S2010x1408_S2010x1408 (ix2 i j) = _
  rw [shapeCast_self, shapeCast_self]
  simp only [matmul]
  rw [Ideal.matmul_constant_zero_apply, ← Equiv.sum_comp (contrEquiv1 dotD 512 rfl rfl).symm]
  refine Finset.sum_congr rfl fun k _ => ?_
  have hk := contrEquiv1_symm_val dotD 512 rfl rfl k
  have el : dotD.lhsIdx (ix2 i j) ((contrEquiv1 dotD 512 rfl rfl).symm k) = ix2 i k := funext fun a => Fin.ext (by
    match a with
    | ⟨0, _⟩ => exact lhs_row _ _
    | ⟨1, _⟩ => exact (dotD.lhsIdx_val_of_single rfl _ _).trans hk)
  have er : dotD.rhsIdx (ix2 i j) ((contrEquiv1 dotD 512 rfl rfl).symm k) = ix2 k j := funext fun a => Fin.ext (by
    match a with
    | ⟨0, _⟩ => exact (dotD.rhsIdx_val_of_single rfl _ _).trans hk
    | ⟨1, _⟩ => exact rhs_col _ _)
  rw [el, er]

theorem ymat_apply (x0 : Vec Ideal S1x2000x512 .f32) (x1 : Vec Ideal S512x1408 .bf16) (i : Fin 2010) (j : Fin 1408) :
    Block.ymat (F := Ideal) x0 x1 (ix2 i j) = ∑ d : Fin 512, x0 (ix3 (0 : Fin 1) (padRow i) d) * x1 (ix2 d j) := by
  unfold Block.ymat
  rw [pay7_apply]
  exact Finset.sum_congr rfl fun d _ => by rw [padded_apply]

/-! ## The channels' blocks of the product -/

/-- Channel `ch`'s contribution to output frame `r`, lane `o`: the frame the channel shows there against the channel's
    lane-group of the packed weights. -/
def contrib (x0 : Vec Ideal S1x2000x512 .f32) (x1 : Vec Ideal S512x1408 .bf16) (r : Fin 2000) (o : Fin 128)
    (ch : Fin 11) : EReal :=
  ∑ d : Fin 512, x0 (ix3 (0 : Fin 1) (srcRow r ch) d) * x1 (ix2 d ⟨ch.val * 128 + o.val, by omega⟩)

/-- A block of the product read through its unit-stride rectangle at offsets `(a, b)`: local entry `(r, o)` is the
    product's entry `(a + r, b + o)`. -/
theorem ld_block_apply (X : Vec Ideal S2010x1408 .f32) (a b : Nat)
    (inb : ∀ k, (![a, b] : Fin 2 → Nat) k + S2000x128.size k ≤ S2010x1408.size k)
    (r : Fin 2000) (o : Fin 128) (ha : a + r.val < 2010) (hb : b + o.val < 1408) :
    View.ld (Val := Elt Ideal) (e' := .f32) X (Rect.unit (s := S2010x1408) ![a, b] S2000x128.size inb) (ix2 r o)
      = X (ix2 ⟨a + r.val, ha⟩ ⟨b + o.val, hb⟩) := by
  show X _ = X _
  refine congrArg X (funext fun k => Fin.ext ?_)
  match k with
  | ⟨0, _⟩ => show a + 1 * r.val = a + r.val; omega
  | ⟨1, _⟩ => show b + 1 * o.val = b + o.val; omega

/-- The block at rows `10 - ch …`, lanes `128 ch …` holds channel `ch`'s contributions. -/
theorem channel_block (x0 : Vec Ideal S1x2000x512 .f32) (x1 : Vec Ideal S512x1408 .bf16) (ch : Fin 11) (a b : Nat)
    (ha : a = 10 - ch.val) (hb : b = 128 * ch.val)
    (inb : ∀ k, (![a, b] : Fin 2 → Nat) k + S2000x128.size k ≤ S2010x1408.size k) (r : Fin 2000) (o : Fin 128) :
    View.ld (Val := Elt Ideal) (e' := .f32) (Block.ymat (F := Ideal) x0 x1)
        (Rect.unit (s := S2010x1408) ![a, b] S2000x128.size inb) (ix2 r o)
      = contrib x0 x1 r o ch := by
  have hc := ch.isLt
  rw [ld_block_apply _ a b inb r o (by omega) (by omega), ymat_apply]
  unfold contrib
  have h1 : padRow ⟨a + r.val, by omega⟩ = srcRow r ch :=
    Fin.ext (by show min (a + r.val - 5) 1999 = min (r.val + 5 - ch.val) 1999; omega)
  have h2 : (⟨b + o.val, by omega⟩ : Fin 1408) = ⟨ch.val * 128 + o.val, by omega⟩ :=
    Fin.ext (by show b + o.val = ch.val * 128 + o.val; omega)
  rw [h1, h2]

theorem ysl0_apply (x0 : Vec Ideal S1x2000x512 .f32) (x1 : Vec Ideal S512x1408 .bf16) (r : Fin 2000) (o : Fin 128) :
    Block.ysl0 (F := Ideal) x0 x1 (ix2 r o) = contrib x0 x1 r o 0 :=
  channel_block x0 x1 0 10 0 (by decide) (by decide) _ r o
theorem ysl1_apply (x0 : Vec Ideal S1x2000x512 .f32) (x1 : Vec Ideal S512x1408 .bf16) (r : Fin 2000) (o : Fin 128) :
    Block.ysl1 (F := Ideal) x0 x1 (ix2 r o) = contrib x0 x1 r o 1 :=
  channel_block x0 x1 1 9 128 (by decide) (by decide) _ r o
theorem ysl2_apply (x0 : Vec Ideal S1x2000x512 .f32) (x1 : Vec Ideal S512x1408 .bf16) (r : Fin 2000) (o : Fin 128) :
    Block.ysl2 (F := Ideal) x0 x1 (ix2 r o) = contrib x0 x1 r o 2 :=
  channel_block x0 x1 2 8 256 (by decide) (by decide) _ r o
theorem ysl3_apply (x0 : Vec Ideal S1x2000x512 .f32) (x1 : Vec Ideal S512x1408 .bf16) (r : Fin 2000) (o : Fin 128) :
    Block.ysl3 (F := Ideal) x0 x1 (ix2 r o) = contrib x0 x1 r o 3 :=
  channel_block x0 x1 3 7 384 (by decide) (by decide) _ r o
theorem ysl4_apply (x0 : Vec Ideal S1x2000x512 .f32) (x1 : Vec Ideal S512x1408 .bf16) (r : Fin 2000) (o : Fin 128) :
    Block.ysl4 (F := Ideal) x0 x1 (ix2 r o) = contrib x0 x1 r o 4 :=
  channel_block x0 x1 4 6 512 (by decide) (by decide) _ r o
theorem ysl5_apply (x0 : Vec Ideal S1x2000x512 .f32) (x1 : Vec Ideal S512x1408 .bf16) (r : Fin 2000) (o : Fin 128) :
    Block.ysl5 (F := Ideal) x0 x1 (ix2 r o) = contrib x0 x1 r o 5 :=
  channel_block x0 x1 5 5 640 (by decide) (by decide) _ r o
theorem ysl6_apply (x0 : Vec Ideal S1x2000x512 .f32) (x1 : Vec Ideal S512x1408 .bf16) (r : Fin 2000) (o : Fin 128) :
    Block.ysl6 (F := Ideal) x0 x1 (ix2 r o) = contrib x0 x1 r o 6 :=
  channel_block x0 x1 6 4 768 (by decide) (by decide) _ r o
theorem ysl7_apply (x0 : Vec Ideal S1x2000x512 .f32) (x1 : Vec Ideal S512x1408 .bf16) (r : Fin 2000) (o : Fin 128) :
    Block.ysl7 (F := Ideal) x0 x1 (ix2 r o) = contrib x0 x1 r o 7 :=
  channel_block x0 x1 7 3 896 (by decide) (by decide) _ r o
theorem ysl8_apply (x0 : Vec Ideal S1x2000x512 .f32) (x1 : Vec Ideal S512x1408 .bf16) (r : Fin 2000) (o : Fin 128) :
    Block.ysl8 (F := Ideal) x0 x1 (ix2 r o) = contrib x0 x1 r o 8 :=
  channel_block x0 x1 8 2 1024 (by decide) (by decide) _ r o
theorem ysl9_apply (x0 : Vec Ideal S1x2000x512 .f32) (x1 : Vec Ideal S512x1408 .bf16) (r : Fin 2000) (o : Fin 128) :
    Block.ysl9 (F := Ideal) x0 x1 (ix2 r o) = contrib x0 x1 r o 9 :=
  channel_block x0 x1 9 1 1152 (by decide) (by decide) _ r o
theorem ysl10_apply (x0 : Vec Ideal S1x2000x512 .f32) (x1 : Vec Ideal S512x1408 .bf16) (r : Fin 2000) (o : Fin 128) :
    Block.ysl10 (F := Ideal) x0 x1 (ix2 r o) = contrib x0 x1 r o 10 :=
  channel_block x0 x1 10 0 1280 (by decide) (by decide) _ r o

/-! ## The running sum -/

/-- A running-sum step at an entry: the two entries added (the shape cast to the same shape reads through). -/
theorem add_step (A B : Vec Ideal S2000x128 .f32) (r : Fin 2000) (o : Fin 128) :
    shapeCast S2000x128 (addf (F := Ideal) A B : FVec Ideal S2000x128 .f32) shapeCasts_S2000x128_S2000x128 (ix2 r o)
      = A (ix2 r o) + B (ix2 r o) := by
  rw [shapeCast_self]; rfl

/-- The eleven contributions added one after the other are their sum over the channels. -/
theorem sum_eleven (t : Fin 11 → EReal) :
    t 0 + t 1 + t 2 + t 3 + t 4 + t 5 + t 6 + t 7 + t 8 + t 9 + t 10 = ∑ ch : Fin 11, t ch := by
  simp only [Fin.sum_univ_castSucc, Fin.sum_univ_zero, zero_add]
  rfl

theorem acc0_apply (x0 : Vec Ideal S1x2000x512 .f32) (x1 : Vec Ideal S512x1408 .bf16) (r : Fin 2000) (o : Fin 128) :
    Block.acc0 (F := Ideal) x0 x1 (ix2 r o) = contrib x0 x1 r o 0 := by
  show shapeCast S2000x128 (Block.ysl0 (F := Ideal) x0 x1) shapeCasts_S2000x128_S2000x128 (ix2 r o) = _
  rw [shapeCast_self, ysl0_apply]

theorem acc1_apply (x0 : Vec Ideal S1x2000x512 .f32) (x1 : Vec Ideal S512x1408 .bf16) (r : Fin 2000) (o : Fin 128) :
    Block.acc1 (F := Ideal) x0 x1 (ix2 r o) = contrib x0 x1 r o 0 + contrib x0 x1 r o 1 := by
  refine (add_step (Block.acc0 (F := Ideal) x0 x1) (Block.ysl1 (F := Ideal) x0 x1) r o).trans ?_
  rw [acc0_apply, ysl1_apply]

theorem acc2_apply (x0 : Vec Ideal S1x2000x512 .f32) (x1 : Vec Ideal S512x1408 .bf16) (r : Fin 2000) (o : Fin 128) :
    Block.acc2 (F := Ideal) x0 x1 (ix2 r o) = contrib x0 x1 r o 0 + contrib x0 x1 r o 1 + contrib x0 x1 r o 2 := by
  refine (add_step (Block.acc1 (F := Ideal) x0 x1) (Block.ysl2 (F := Ideal) x0 x1) r o).trans ?_
  rw [acc1_apply, ysl2_apply]

theorem acc3_apply (x0 : Vec Ideal S1x2000x512 .f32) (x1 : Vec Ideal S512x1408 .bf16) (r : Fin 2000) (o : Fin 128) :
    Block.acc3 (F := Ideal) x0 x1 (ix2 r o) = contrib x0 x1 r o 0 + contrib x0 x1 r o 1 + contrib x0 x1 r o 2 + contrib x0 x1 r o 3 := by
  refine (add_step (Block.acc2 (F := Ideal) x0 x1) (Block.ysl3 (F := Ideal) x0 x1) r o).trans ?_
  rw [acc2_apply, ysl3_apply]

theorem acc4_apply (x0 : Vec Ideal S1x2000x512 .f32) (x1 : Vec Ideal S512x1408 .bf16) (r : Fin 2000) (o : Fin 128) :
    Block.acc4 (F := Ideal) x0 x1 (ix2 r o) = contrib x0 x1 r o 0 + contrib x0 x1 r o 1 + contrib x0 x1 r o 2 + contrib x0 x1 r o 3 + contrib x0 x1 r o 4 := by
  refine (add_step (Block.acc3 (F := Ideal) x0 x1) (Block.ysl4 (F := Ideal) x0 x1) r o).trans ?_
  rw [acc3_apply, ysl4_apply]

theorem acc5_apply (x0 : Vec Ideal S1x2000x512 .f32) (x1 : Vec Ideal S512x1408 .bf16) (r : Fin 2000) (o : Fin 128) :
    Block.acc5 (F := Ideal) x0 x1 (ix2 r o) = contrib x0 x1 r o 0 + contrib x0 x1 r o 1 + contrib x0 x1 r o 2 + contrib x0 x1 r o 3 + contrib x0 x1 r o 4 + contrib x0 x1 r o 5 := by
  refine (add_step (Block.acc4 (F := Ideal) x0 x1) (Block.ysl5 (F := Ideal) x0 x1) r o).trans ?_
  rw [acc4_apply, ysl5_apply]

theorem acc6_apply (x0 : Vec Ideal S1x2000x512 .f32) (x1 : Vec Ideal S512x1408 .bf16) (r : Fin 2000) (o : Fin 128) :
    Block.acc6 (F := Ideal) x0 x1 (ix2 r o) = contrib x0 x1 r o 0 + contrib x0 x1 r o 1 + contrib x0 x1 r o 2 + contrib x0 x1 r o 3 + contrib x0 x1 r o 4 + contrib x0 x1 r o 5 + contrib x0 x1 r o 6 := by
  refine (add_step (Block.acc5 (F := Ideal) x0 x1) (Block.ysl6 (F := Ideal) x0 x1) r o).trans ?_
  rw [acc5_apply, ysl6_apply]

theorem acc7_apply (x0 : Vec Ideal S1x2000x512 .f32) (x1 : Vec Ideal S512x1408 .bf16) (r : Fin 2000) (o : Fin 128) :
    Block.acc7 (F := Ideal) x0 x1 (ix2 r o) = contrib x0 x1 r o 0 + contrib x0 x1 r o 1 + contrib x0 x1 r o 2 + contrib x0 x1 r o 3 + contrib x0 x1 r o 4 + contrib x0 x1 r o 5 + contrib x0 x1 r o 6 + contrib x0 x1 r o 7 := by
  refine (add_step (Block.acc6 (F := Ideal) x0 x1) (Block.ysl7 (F := Ideal) x0 x1) r o).trans ?_
  rw [acc6_apply, ysl7_apply]

theorem acc8_apply (x0 : Vec Ideal S1x2000x512 .f32) (x1 : Vec Ideal S512x1408 .bf16) (r : Fin 2000) (o : Fin 128) :
    Block.acc8 (F := Ideal) x0 x1 (ix2 r o) = contrib x0 x1 r o 0 + contrib x0 x1 r o 1 + contrib x0 x1 r o 2 + contrib x0 x1 r o 3 + contrib x0 x1 r o 4 + contrib x0 x1 r o 5 + contrib x0 x1 r o 6 + contrib x0 x1 r o 7 + contrib x0 x1 r o 8 := by
  refine (add_step (Block.acc7 (F := Ideal) x0 x1) (Block.ysl8 (F := Ideal) x0 x1) r o).trans ?_
  rw [acc7_apply, ysl8_apply]

theorem acc9_apply (x0 : Vec Ideal S1x2000x512 .f32) (x1 : Vec Ideal S512x1408 .bf16) (r : Fin 2000) (o : Fin 128) :
    Block.acc9 (F := Ideal) x0 x1 (ix2 r o) = contrib x0 x1 r o 0 + contrib x0 x1 r o 1 + contrib x0 x1 r o 2 + contrib x0 x1 r o 3 + contrib x0 x1 r o 4 + contrib x0 x1 r o 5 + contrib x0 x1 r o 6 + contrib x0 x1 r o 7 + contrib x0 x1 r o 8 + contrib x0 x1 r o 9 := by
  refine (add_step (Block.acc8 (F := Ideal) x0 x1) (Block.ysl9 (F := Ideal) x0 x1) r o).trans ?_
  rw [acc8_apply, ysl9_apply]

theorem accAll_apply (x0 : Vec Ideal S1x2000x512 .f32) (x1 : Vec Ideal S512x1408 .bf16) (r : Fin 2000) (o : Fin 128) :
    Block.accAll (F := Ideal) x0 x1 (ix2 r o) = ∑ ch : Fin 11, contrib x0 x1 r o ch := by
  refine (add_step (Block.acc9 (F := Ideal) x0 x1) (Block.ysl10 (F := Ideal) x0 x1) r o).trans ?_
  rw [acc9_apply, ysl10_apply]
  exact sum_eleven (contrib x0 x1 r o)

/-! ## The output block -/

/-- What a grid point leaves at frame `r`, lane `o` of its output block: the eleven channels' contributions plus the
    bias lane. -/
theorem blockOut_apply (x0 : Vec Ideal S1x2000x512 .f32) (x1 : Vec Ideal S512x1408 .bf16) (x2 : Vec Ideal S1x128 .f32)
    (r : Fin 2000) (o : Fin 128) :
    Block.blockOut (F := Ideal) x0 x1 x2 (ix3 (0 : Fin 1) r o)
      = (∑ ch : Fin 11, ∑ d : Fin 512,
          x0 (ix3 (0 : Fin 1) (srcRow r ch) d) * x1 (ix2 d ⟨ch.val * 128 + o.val, by omega⟩))
        + x2 (ix2 (0 : Fin 1) o) := by
  show shapeCast S1x2000x128
      (addf (F := Ideal) (Block.accAll (F := Ideal) x0 x1)
        (broadcastTo S2000x128 (shapeCast S1x128 x2 shapeCasts_S1x128_S1x128 : FVec Ideal S1x128 .f32)
          broadcasts_S1x128_S2000x128) : FVec Ideal S2000x128 .f32)
      shapeCasts_S2000x128_S1x2000x128 (ix3 (0 : Fin 1) r o) = _
  refine (shapeCast_ab_1ab_apply _ _ 0 r o).trans ?_
  refine (addf_apply _ _ _).trans ?_
  rw [accAll_apply, broadcastTo_1b_ab_apply, shapeCast_self]
  rfl

/-! ## Against zero-padded weights and bias -/

/-- Channel and feature against the flattened feature index: `(ch, d) ↦ ch * 512 + d`, with inverse
    `k ↦ (k / 512, k % 512)`. -/
def flatEquiv : Fin 11 × Fin 512 ≃ Fin 5632 where
  toFun p := flat p.1 p.2
  invFun k := (chan k, lane k)
  left_inv p := Prod.ext (chan_flat p.1 p.2) (lane_flat p.1 p.2)
  right_inv k := flat_chan_lane k

/-- A sum over channels and features is the sum over the flattened feature index. -/
theorem sum_flat (g : Fin 5632 → EReal) : ∑ ch : Fin 11, ∑ d : Fin 512, g (flat ch d) = ∑ k : Fin 5632, g k :=
  (Fintype.sum_prod_type' (fun ch d => g (flat ch d))).symm.trans
    (Fintype.sum_equiv flatEquiv (fun p => g (flat p.1 p.2)) g (fun _ => rfl))

/-- With the packed weights the zero-padded layout of `W` and the packed bias the zero-padded `bias`, the output
    block's entry at frame `r` and an output lane `o < 41` is the windowed linear layer's value there. -/
theorem blockOut_packed (x0 : Vec Ideal S1x2000x512 .f32) (x1 : Vec Ideal S512x1408 .bf16) (x2 : Vec Ideal S1x128 .f32)
    (W : S41x5632.Idx → EReal) (bias : S41.Idx → EReal)
    (hW : ∀ (d : Fin 512) (ch : Fin 11) (o : Fin 128), x1 (ix2 d ⟨ch.val * 128 + o.val, by omega⟩)
      = if h : o.val < 41 then W (ix2 ⟨o.val, h⟩ (flat ch d)) else (0 : EReal))
    (hB : ∀ o : Fin 128, x2 (ix2 (0 : Fin 1) o) = if h : o.val < 41 then bias (ix1 ⟨o.val, h⟩) else (0 : EReal))
    (r : Fin 2000) (o : Fin 41) :
    Block.blockOut (F := Ideal) x0 x1 x2 (ix3 (0 : Fin 1) r ⟨o.val, by omega⟩)
      = (∑ k : Fin 5632, x0 (ix3 (0 : Fin 1) (srcRow r (chan k)) (lane k)) * W (ix2 o k)) + bias (ix1 o) := by
  have ho : o.val < 41 := o.isLt
  rw [blockOut_apply, hB, dif_pos ho, ← sum_flat]
  refine congrArg (· + bias (ix1 o)) ?_
  refine Finset.sum_congr rfl fun ch _ => Finset.sum_congr rfl fun d _ => ?_
  rw [hW, dif_pos ho, chan_flat, lane_flat]

end Cert.KernelIdeal.BlockValue

end
-- ==== Proof.HostWeights.lean ====
/-
  What the two arrays the kernel region is launched on hold.

  Before the region the host packs the weights `W : [41, 5632]` and the bias `b : [41]`:

  * `W` is read as `[41, 11, 512]` (output `o`, channel `ch`, feature `d`), its output axis is moved last and
    padded with zeros from 41 to 128 lanes, the feature axis is moved first, and the channel and lane axes are laid
    side by side: the packed array `[512, 1408]` holds, at row `d` and column `ch * 128 + o`, the weight
    `W (o, ch * 512 + d)` when `o < 41` and `0` on the 87 padding lanes. The last step narrows the format, which is
    the identity on extended reals.
  * `b` is padded with zeros from 41 to 128 lanes and given a leading unit axis: the packed row `[1, 128]` holds
    `b o` at lane `o < 41` and `0` on the padding lanes.

  The padding value is the integer constant `0` converted to a real, which is the real `0`.
-/
import proofs.«122783_j28260884808343_2_alg».proof.Proof.Gen.KernelIdeal.Frame
import proofs.«122783_j28260884808343_2_alg».proof.Proof.Spec
import Idealize.ShloMosaic.Lib.KernelVsHost
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostValue

open Idealize.ShloMosaic Idealize.ShloMosaic.TcCoe Idealize.ShloMosaic.Tactic
open Idealize.ShloMosaic.ValueIdx
open Cert.KernelIdeal

variable (m : (ℓ : Loc nD τ sig) → Buf (Elt Ideal) ℓ) (c : Dev nD)

/-- The padding value: the integer `0` converted to a real is `0`. -/
theorem zero_pad_value (i : S_.Idx) : (sitofp (F := Ideal) .f32 (constantI S_ 32 0#32) : S_.Idx → EReal) i = 0 := by
  show (((0#32 : BitVec 32).toInt : ℝ) : EReal) = 0
  simp

/-! ## The bias row -/

/-- The packed bias row as a term of the launched bias: padded to 128 lanes, then given a leading unit axis. -/
theorem packedB_term :
    (Gen.V m c main_v7 : S1x128.Idx → EReal)
      = shapeCast S1x128
          (pad S128 ![0] ![87] ![0] (m ((c : Thread nD τ).loc main_arg2) : S41.Idx → EReal)
            (sitofp (F := Ideal) .f32 (constantI S_ 32 0#32)) Gen.pads_S41_S128_0870 Gen.h_S_)
          Gen.shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The packed bias row at lane `o`: the bias `b o` below lane 41, zero on the padding lanes. -/
theorem packedB_apply (o : Fin 128) :
    (Gen.V m c main_v7 : S1x128.Idx → EReal) (ix2 (0 : Fin 1) o)
      = if h : o.val < 41 then (m ((c : Thread nD τ).loc main_arg2) : S41.Idx → EReal) (ix1 ⟨o.val, h⟩)
        else (0 : EReal) := by
  refine (congrFun (packedB_term m c) _).trans ?_
  -- the leading unit axis reads through
  refine (shapeCast_a_1a_apply _ _ 0 o).trans ?_
  by_cases h : o.val < 41
  · rw [dif_pos h]
    -- inside the operand of the padding
    exact pad_apply_of_inside _ _ _ _ _ _ _ (ix1 o) (ix1 ⟨o.val, h⟩)
      (fun a => match a with | ⟨0, _⟩ => by show o.val = 0 + o.val * (0 + 1); omega)
  · rw [dif_neg h]
    -- in the high padding
    refine (pad_apply_of_not_inside _ _ _ _ _ _ _ (ix1 o) (0 : Fin 1) ?_).trans (zero_pad_value _)
    intro hin
    have h3 : (o.val - 0) / (0 + 1) < 41 := hin.2.2
    omega

/-! ## The weights -/

theorem packedW_term :
    (Gen.V m c main_v5 : S512x1408.Idx → EReal)
      = truncf (F := Ideal) .bf16
          (shapeCast S512x1408
            (transpose S512x11x128 [1, 0, 2]
              (pad S11x512x128 ![0, 0, 0] ![0, 0, 87] ![0, 0, 0]
                (transpose S11x512x41 [1, 2, 0]
                  (shapeCast S41x11x512 (m ((c : Thread nD τ).loc main_arg1) : S41x5632.Idx → EReal)
                    Gen.shapeCasts_S41x5632_S41x11x512)
                  Gen.transposes_S41x11x512_S11x512x41_1_2_0)
                (sitofp (F := Ideal) .f32 (constantI S_ 32 0#32))
                Gen.pads_S11x512x41_S11x512x128_000_000_0870 Gen.h_S_)
              Gen.transposes_S11x512x128_S512x11x128_1_0_2)
            Gen.shapeCasts_S512x11x128_S512x1408)
          Gen.bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

theorem packedW_apply (d : Fin 512) (ch : Fin 11) (o : Fin 128) :
    (Gen.V m c main_v5 : S512x1408.Idx → EReal) (ix2 d ⟨ch.val * 128 + o.val, by omega⟩)
      = if h : o.val < 41 then
          (m ((c : Thread nD τ).loc main_arg1) : S41x5632.Idx → EReal) (ix2 ⟨o.val, h⟩ (WindowedLinear.flat ch d))
        else (0 : EReal) := by
  refine (congrFun (packedW_term m c) _).trans ?_
  -- the format change is the identity on extended reals
  refine (truncf_apply (φ := .f32) (ψ := .bf16) _ Gen.bitsLt_bf16_f32 _).trans ?_
  -- [512, 11, 128] laid out as [512, 1408]: column `ch * 128 + o` is entry `(ch, o)`
  refine (shapeCast_apply _ _ _ (ix3 d ch o) (by
    rw [Shape.rowMajor_val_three, Shape.rowMajor_val_two]
    show (d.val * 11 + ch.val) * 128 + o.val = d.val * 1408 + (ch.val * 128 + o.val)
    omega)).trans ?_
  -- the first two axes exchanged
  refine (transpose_apply _ _ _ _ (ix3 ch d o) (fun b => match b with | ⟨0, _⟩ => rfl | ⟨1, _⟩ => rfl | ⟨2, _⟩ => rfl)).trans ?_
  by_cases h : o.val < 41
  · rw [dif_pos h]
    -- inside the operand of the padding
    refine (pad_apply_of_inside _ _ _ _ _ _ _ (ix3 ch d o) (ix3 ch d (⟨o.val, h⟩ : Fin 41))
      (fun a => match a with
        | ⟨0, _⟩ => by show ch.val = 0 + ch.val * (0 + 1); omega
        | ⟨1, _⟩ => by show d.val = 0 + d.val * (0 + 1); omega
        | ⟨2, _⟩ => by show o.val = 0 + o.val * (0 + 1); omega)).trans ?_
    -- the output axis moved from last to first
    refine (transpose_apply _ _ _ _ (ix3 (⟨o.val, h⟩ : Fin 41) ch d) (fun b => match b with | ⟨0, _⟩ => rfl | ⟨1, _⟩ => rfl | ⟨2, _⟩ => rfl)).trans ?_
    -- [41, 5632] laid out as [41, 11, 512]: entry `(ch, d)` is column `ch * 512 + d`
    exact shapeCast_apply _ _ _ (ix2 (⟨o.val, h⟩ : Fin 41) (WindowedLinear.flat ch d)) (by
      rw [Shape.rowMajor_val_three, Shape.rowMajor_val_two]
      show o.val * 5632 + (ch.val * 512 + d.val) = (o.val * 11 + ch.val) * 512 + d.val
      omega)
  · rw [dif_neg h]
    -- in the high padding of the last axis
    refine (pad_apply_of_not_inside _ _ _ _ _ _ _ (ix3 ch d o) (2 : Fin 3) ?_).trans (zero_pad_value _)
    intro hin
    have h3 : (o.val - 0) / (0 + 1) < 41 := hin.2.2
    omega

end Cert.KernelIdeal.HostValue

end
-- ==== Proof.KernelValue.lean ====
/-
  The kernel program's result, over the extended reals: the windowed linear layer of its three arguments.

  The grid has one point per batch. The frames' window hands point `b` batch `b` of the frames, the weights' and the
  bias's windows hand every point the whole packed arrays, and the result's window takes back from point `b` batch `b`
  of the result array; the sixteen blocks tile that array, so after the region it holds, at `(b, r, o)`, the block
  function of point `b`'s input blocks at `(r, o)`. The one line after the region keeps the lanes below 41. With the
  packed arrays the zero-padded layouts of the launched weights and bias, the block function at an output lane
  `o < 41` is `∑ k, x (b, clamp (r + 5 - k / 512), k % 512) * W (o, k) + bias o`, which is the specification's `G`.
-/
import proofs.«122783_j28260884808343_2_alg».proof.Proof.FrameRun
import proofs.«122783_j28260884808343_2_alg».proof.Proof.BlockValue
import proofs.«122783_j28260884808343_2_alg».proof.Proof.HostWeights
import proofs.«122783_j28260884808343_2_alg».proof.Proof.Spec
import Idealize.ShloMosaic.Lib.Pipeline.Value
import Idealize.ShloMosaic.Lib.StableHlo.Run
import Idealize.ShloMosaic.Lib.Pipeline.FrameSuffix

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## The grid's points and the input blocks -/

/-- Grid point `b`: the pipeline's point for batch `b`. -/
def pt (b : Fin 16) : Fin cfg0.N := ⟨b.val, by rw [show cfg0.N = 16 from N_0]; exact b.isLt⟩

/-- The index maps, decided over the grid: the frames' and the result's windows move with the point on the batch axis,
    the weights' and the bias's windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The frames' block at point `t` is batch `t` of the launched frames. -/
theorem iblk0_apply (c : Dev nD) (t : Fin cfg0.N) (r : Fin 2000) (d : Fin 512) (b : Fin 16) (hb : b.val = t.val) :
    (iblk m c 0 t : Vec Ideal S1x2000x512 .f32) (ix3 (0 : Fin 1) r d)
      = (m ((c : Thread nD τ).loc main_arg0) : S16x2000x512.Idx → EReal) (ix3 b r d) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = b.val; rw [e0, hb]; omega
  | ⟨1, _⟩ => show win0_0.index t (1 : Fin 3) * 2000 + 1 * r.val = r.val; rw [e1]; omega
  | ⟨2, _⟩ => show win0_0.index t (2 : Fin 3) * 512 + 1 * d.val = d.val; rw [e2]; omega

/-- The weights' block at any point is the whole packed array. -/
theorem iblk1_apply (c : Dev nD) (t : Fin cfg0.N) (d : Fin 512) (k : Fin 1408) :
    (iblk m c 1 t : Vec Ideal S512x1408 .bf16) (ix2 d k) = (V m c main_v5 : S512x1408.Idx → EReal) (ix2 d k) := by
  obtain ⟨-, -, -, e0, e1, -⟩ := idx_facts t
  unfold iblk
  rw [View.read_apply]
  show V m c main_v5 _ = V m c main_v5 _
  congr 1
  funext a
  apply Fin.ext
  match a with
  | ⟨0, _⟩ => show win0_1.index t (0 : Fin 2) * 512 + 1 * d.val = d.val; rw [e0]; omega
  | ⟨1, _⟩ => show win0_1.index t (1 : Fin 2) * 1408 + 1 * k.val = k.val; rw [e1]; omega

/-- The bias's block at any point is the whole packed row. -/
theorem iblk2_apply (c : Dev nD) (t : Fin cfg0.N) (o : Fin 128) :
    (iblk m c 2 t : Vec Ideal S1x128 .f32) (ix2 (0 : Fin 1) o) = (V m c main_v7 : S1x128.Idx → EReal) (ix2 (0 : Fin 1) o) := by
  obtain ⟨-, -, -, -, -, e0, e1, -⟩ := idx_facts t
  unfold iblk
  rw [View.read_apply]
  show V m c main_v7 _ = V m c main_v7 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * o.val = o.val; rw [e1]; omega

/-! ## The result array after the region -/

/-- What the result array ends holding: at batch `b`, frame `r`, lane `o` the block function of point `b`'s input
    blocks. -/
def Gfull (c : Dev nD) : S16x2000x128.Idx → EReal := fun y =>
  have yb : Fin 16 := y 0
  have yr : Fin 2000 := y 1
  have yo : Fin 128 := y 2
  Block.blockOut (F := Ideal) (iblk m c 0 (pt yb)) (iblk m c 1 (pt yb)) (iblk m c 2 (pt yb)) (ix3 (0 : Fin 1) yr yo)

/-- What point `t` writes back is block `t` of `Gfull`. -/
theorem flushed3_eq (c : Dev nD) (t : Fin cfg0.N) :
    (dats m 0 c).flushed 3 t = ((cfg0.win 3).blk t).view.read (Elt Ideal) (Gfull m c) := by
  show (cfg0.win 3).cut (grid0.coords t) ((dats m 0 c).after 3 t) = _
  rw [after0_3]
  obtain ⟨-, -, -, -, -, -, -, e0, e1, e2⟩ := idx_facts t
  have hN : cfg0.N = 16 := N_0
  funext j
  have hj0 : (j 0).val < 1 := (j 0).isLt
  have hj1 : (j 1).val < 2000 := (j 1).isLt
  have hj2 : (j 2).val < 128 := (j 2).isLt
  have ht : t.val < 16 := hN ▸ t.isLt
  rw [View.read_apply]
  have hemb : ((cfg0.win 3).blk t).view.emb j
      = ix3 (⟨t.val, ht⟩ : Fin 16) (⟨(j 1).val, hj1⟩ : Fin 2000) (⟨(j 2).val, hj2⟩ : Fin 128) := by
    funext a; apply Fin.ext
    match a with
    | ⟨0, _⟩ => show win0_3.index t (0 : Fin 3) * 1 + 1 * (j 0).val = t.val; rw [e0]; omega
    | ⟨1, _⟩ => show win0_3.index t (1 : Fin 3) * 2000 + 1 * (j 1).val = (j 1).val; rw [e1]; omega
    | ⟨2, _⟩ => show win0_3.index t (2 : Fin 3) * 128 + 1 * (j 2).val = (j 2).val; rw [e2]; omega
  rw [hemb]
  have hpt : pt (⟨t.val, ht⟩ : Fin 16) = t := Fin.ext rfl
  have hx : (cfg0.win 3).xinj (grid0.coords t) j
      = ix3 (0 : Fin 1) (⟨(j 1).val, hj1⟩ : Fin 2000) (⟨(j 2).val, hj2⟩ : Fin 128) := by
    funext a; apply Fin.ext
    match a with
    | ⟨0, _⟩ => show (j 0).val = 0; omega
    | ⟨1, _⟩ => rfl
    | ⟨2, _⟩ => rfl
  show Block.blockOut (F := Ideal) (iblk m c 0 t) (iblk m c 1 t) (iblk m c 2 t) ((cfg0.win 3).xinj (grid0.coords t) j)
    = Block.blockOut (F := Ideal) (iblk m c 0 (pt ⟨t.val, ht⟩)) (iblk m c 1 (pt ⟨t.val, ht⟩)) (iblk m c 2 (pt ⟨t.val, ht⟩))
        (ix3 (0 : Fin 1) (⟨(j 1).val, hj1⟩ : Fin 2000) (⟨(j 2).val, hj2⟩ : Fin 128))
  rw [hpt, hx]

/-- An index of the result array is in point `t`'s block iff each coordinate is in the block's range on its axis. -/
theorem mem_blk3 (t : Fin cfg0.N) (i : S16x2000x128.Idx) :
    i ∈ ((cfg0.win 3).blk t).view.set ↔ ∀ a : Fin 3, win0_3.index t a * S1x2000x128.size a ≤ (i a).val
      ∧ (i a).val < win0_3.index t a * S1x2000x128.size a + S1x2000x128.size a := by
  show i ∈ ((View.whole main_v8).slice (win0_3.rect t)).set ↔ _
  rw [View.set_slice_whole, Rect.mem_set_unit]
  exact Iff.rfl

/-- The blocks tile the result array: index `i` is in the block of the point of its batch. -/
theorem cover3 (i : S16x2000x128.Idx) :
    ∃ t : Fin cfg0.N, (cfg0.win 3).flush t = true ∧ i ∈ ((cfg0.win 3).blk t).view.set := by
  refine ⟨pt (i 0), flush0_3 _, ?_⟩
  rw [mem_blk3]
  obtain ⟨-, -, -, -, -, -, -, e0, e1, e2⟩ := idx_facts (pt (i 0))
  have e0' : win0_3.index (pt (i 0)) (0 : Fin 3) = (i 0).val := e0
  have h0 : (i 0).val < 16 := (i 0).isLt
  have h1 : (i 1).val < 2000 := (i 1).isLt
  have h2 : (i 2).val < 128 := (i 2).isLt
  intro a
  match a with
  | ⟨0, _⟩ =>
    show win0_3.index (pt (i 0)) (0 : Fin 3) * 1 ≤ (i 0).val ∧ (i 0).val < win0_3.index (pt (i 0)) (0 : Fin 3) * 1 + 1
    rw [e0']; omega
  | ⟨1, _⟩ =>
    show win0_3.index (pt (i 0)) (1 : Fin 3) * 2000 ≤ (i 1).val ∧ (i 1).val < win0_3.index (pt (i 0)) (1 : Fin 3) * 2000 + 2000
    rw [e1]; omega
  | ⟨2, _⟩ =>
    show win0_3.index (pt (i 0)) (2 : Fin 3) * 128 ≤ (i 2).val ∧ (i 2).val < win0_3.index (pt (i 0)) (2 : Fin 3) * 128 + 128
    rw [e2]; omega

/-- The result array after the region is `Gfull`. -/
theorem final8 (c : Dev nD) : (dats m 0 c).arrAt 3 cfg0.N = Gfull m c :=
  (dats m 0 c).arrAt_eq_of_cover 3 (Gfull m c) (fun t _ => flushed3_eq m c t) cover3

/-! ## The line after the region -/

/-- The program's result: the first 41 lanes of the result array. -/
theorem tail9 (c : Dev nD) : Pipeline.afterTail₀ cfgs (dats m) 0 (V0 m) [hostOps1] c main_v9
    = extractStridedSlice S16x2000x41 ![0, 0, 0] (Gfull m c) slices_S16x2000x128_S16x2000x41_0_0_0 := by
  unfold Pipeline.afterTail₀
  show StableHlo.after hostOps1 _ (Proc.devRef .tc main_v9) = _
  after_results
  exact congrArg (fun X => extractStridedSlice S16x2000x41 ![0, 0, 0] X slices_S16x2000x128_S16x2000x41_0_0_0)
    ((Pipeline.withArrays_arr spec0 launch0.win.arr_inj c (V0 m c) (fun w => (dats m 0 c).arrAt w cfg0.N) 3).trans (final8 m c))

/-- The program's result at batch `b`, frame `r`, output `o` is the windowed linear layer of the launched frames,
    weights and bias. -/
theorem value9 (c : Dev nD) (b : Fin 16) (r : Fin 2000) (o : Fin 41) :
    (Pipeline.afterTail₀ cfgs (dats m) 0 (V0 m) [hostOps1] c main_v9 : S16x2000x41.Idx → EReal) (ix3 b r o)
      = WindowedLinear.G (m ((c : Thread nD τ).loc main_arg0)) (m ((c : Thread nD τ).loc main_arg1))
          (m ((c : Thread nD τ).loc main_arg2)) (ix3 b r o) := by
  refine (congrFun (tail9 m c) _).trans ?_
  -- the slice keeps the lanes below 41
  refine (extractStridedSlice_apply _ _ _ (ix3 b r o) (ix3 b r (⟨o.val, by omega⟩ : Fin 128)) (fun a => match a with
    | ⟨0, _⟩ => by show b.val = 0 + b.val; omega
    | ⟨1, _⟩ => by show r.val = 0 + r.val; omega
    | ⟨2, _⟩ => by show o.val = 0 + o.val; omega)).trans ?_
  show Block.blockOut (F := Ideal) (iblk m c 0 (pt b)) (iblk m c 1 (pt b)) (iblk m c 2 (pt b))
      (ix3 (0 : Fin 1) r ⟨o.val, by omega⟩) = _
  -- the block function against the packed weights and bias, which are the zero-padded launched ones
  rw [BlockValue.blockOut_packed (iblk m c 0 (pt b)) (iblk m c 1 (pt b)) (iblk m c 2 (pt b))
      (m ((c : Thread nD τ).loc main_arg1)) (m ((c : Thread nD τ).loc main_arg2))
      (fun d ch o' => (iblk1_apply m c (pt b) d _).trans (HostValue.packedW_apply m c d ch o'))
      (fun o' => (iblk2_apply m c (pt b) o').trans (HostValue.packedB_apply m c o')) r o,
    WindowedLinear.G_apply]
  -- the frames' block at the batch's point is the batch's frames
  refine congrArg (· + _) (Finset.sum_congr rfl fun k _ => ?_)
  rw [iblk0_apply m c (pt b) _ _ b rfl]

/-- The program's result is the windowed linear layer of the launched arrays. -/
theorem value9_eq (c : Dev nD) :
    Pipeline.afterTail₀ cfgs (dats m) 0 (V0 m) [hostOps1] c main_v9
      = WindowedLinear.G (m ((c : Thread nD τ).loc main_arg0)) (m ((c : Thread nD τ).loc main_arg1))
          (m ((c : Thread nD τ).loc main_arg2)) := by
  funext i
  obtain ⟨b, r, o, rfl⟩ : ∃ (b : Fin 16) (r : Fin 2000) (o : Fin 41), i = ix3 b r o := ⟨i 0, i 1, i 2, eq_ix3 i⟩
  exact value9 m c b r o

/-! ## The run, read -/

/-- Every weakly fair execution of the program terminates with the result array at the windowed linear layer of the
    launched frames, weights and bias, and the three arguments unchanged. -/
theorem run : θ_run defs (onTc (τ := τ) (main (F := Ideal))) ⟨m, fun _ => 0, ρ⟩ fun r => ∀ c : Dev nD,
      r.2.mem ((c.tc : Thread nD τ).loc main_v9)
        = WindowedLinear.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v9 (Pipeline.mem_restRefs_of main_v9 (by decide) (by decide))).trans (value9_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (Body.run_main m ρ)

end Cert.KernelIdeal.KValue

end
-- ==== Proof.RefValue.lean ====
/-
  The reference program's result, entry by entry, is the windowed linear layer of the shared specification.

  Three steps. (1) The integer chain that builds the row indices: for output frame r and window channel c the
  32-bit word is (r + (5 - c)) clamped into [0, 1999]; no step wraps, the later "add 2000 if negative" never fires
  because the clamped value is nonnegative, so read as a signed integer the word is min (r + 5 - c) 1999 with the
  subtraction truncated at zero. (2) The gather of whole rows read at an index: result entry (b, r, c, d) is the
  operand at (b, row, d), row the start index at (r, c, 0) read signed and clamped into [0, 1999]. (3) The reshape
  lays channel c, feature d at flattened position c * 512 + d, so flattened position k reads channel k / 512 and
  feature k % 512; the contraction and the broadcast bias are then the specification's sum and bias term by term.
-/
import proofs.«122783_j28260884808343_2_alg».proof.Proof.Gen.ReferenceIdeal.Read
import proofs.«122783_j28260884808343_2_alg».proof.Proof.Spec
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Idealize.ShloMosaic.Affine
open scoped BigOperators

/-! ## (1) The row index, as a signed integer -/

/-- The word the index chain leaves at (r, c), read signed: r + (5 - c) clamped into [0, 1999]. -/
theorem row_isInt (i : S2000x11.Idx) :
    IsInt (val_main_v14 (F := Ideal) i) (min 1999 (max 0 (((i 0).val : Int) + (5 - ((i 1).val : Int))))) := by
  have hr : (i 0).val < 2000 := (i 0).isLt
  have hc : (i 1).val < 11 := (i 1).isLt
  have h6 : IsInt (val_main_v6 (F := Ideal) i) ((i 0).val : Int) := by
    rw [val_main_v6_apply, val_main_v4_apply, val_main_v3_apply]
    exact Affine.ofNat _ ⟨rfl, by show (i 0).val < 2 ^ 31; omega⟩
  have h7 : IsInt (val_main_v7 (F := Ideal) i) (5 - ((i 1).val : Int)) := by
    rw [val_main_v7_apply, val_main_v5_apply, val_main_v2_apply, val_main_v1_apply, val_main_c_apply, val_main_v0_apply]
    exact Affine.subi (Affine.ofNat 5 ⟨rfl, by omega⟩) (Affine.ofNat _ ⟨rfl, by show (i 1).val < 2 ^ 31; omega⟩)
      ⟨rfl, by show -2 ^ 31 ≤ (5 : Int) - ((i 1).val : Int); omega, by show (5 : Int) - ((i 1).val : Int) < 2 ^ 31; omega⟩
  have h8 : IsInt (val_main_v8 (F := Ideal) i) (((i 0).val : Int) + (5 - ((i 1).val : Int))) := by
    rw [val_main_v8_apply]
    exact Affine.addi h6 h7 ⟨rfl, by omega, by omega⟩
  have hlo : IsInt (val_main_call0_v1 (F := Ideal) i) 0 := by
    rw [val_main_call0_v1_apply, val_main_call0_v0_apply, val_main_c_0_apply]
    exact Affine.ofNat 0 ⟨rfl, by omega⟩
  have hhi : IsInt (val_main_call0_v4 (F := Ideal) i) 1999 := by
    rw [val_main_call0_v4_apply, val_main_call0_v3_apply, val_main_c_1_apply]
    exact Affine.ofNat 1999 ⟨rfl, by omega⟩
  have h2 : IsInt (val_main_call0_v2 (F := Ideal) i) (max 0 (((i 0).val : Int) + (5 - ((i 1).val : Int)))) := by
    rw [val_main_call0_v2_apply]
    exact Affine.maxsi hlo h8 rfl
  have h9 : IsInt (val_main_v9 (F := Ideal) i) (min 1999 (max 0 (((i 0).val : Int) + (5 - ((i 1).val : Int))))) := by
    rw [val_main_v9_apply]
    exact Affine.minsi hhi h2 rfl
  have h10 : IsInt (val_main_v10 (F := Ideal) i) 0 := by
    rw [val_main_v10_apply, val_main_c_2_apply]
    exact Affine.ofNat 0 ⟨rfl, by omega⟩
  have h12 : IsInt (val_main_v12 (F := Ideal) i) 2000 := by
    rw [val_main_v12_apply, val_main_c_3_apply]
    exact Affine.ofNat 2000 ⟨rfl, by omega⟩
  have h13 : IsInt (val_main_v13 (F := Ideal) i) (min 1999 (max 0 (((i 0).val : Int) + (5 - ((i 1).val : Int)))) + 2000) := by
    rw [val_main_v13_apply]
    exact Affine.addi h9 h12 ⟨rfl, by omega, by omega⟩
  have h11 : Fails (val_main_v11 (F := Ideal) i) := by
    rw [val_main_v11_apply]
    exact Affine.slt_fails h9 h10 (by omega)
  rw [val_main_v14_apply]
  exact Affine.select_fails h11 h13 h9 rfl

/-- The start index at (r, c, 0), read signed and taken as a natural number, is min (r + 5 - c) 1999. -/
theorem row_toNat (r : Fin 2000) (c : Fin 11) :
    (val_main_v15 (F := Ideal) (ix3 r c (0 : Fin 1))).toInt.toNat = min (r.val + 5 - c.val) 1999 := by
  rw [val_main_v15_apply]
  have h := row_isInt (idx_main_v15 (ix3 r c (0 : Fin 1)))
  unfold IsInt at h
  rw [h]
  have hr : r.val < 2000 := r.isLt
  have hc : c.val < 11 := c.isLt
  show (min 1999 (max 0 ((r.val : Int) + (5 - (c.val : Int))))).toNat = min (r.val + 5 - c.val) 1999
  omega

/-! ## (2) The gather of whole rows, read at an index -/

/-- The program's gather dimension numbers, under a short name. -/
abbrev gd : GatherDims S16x2000x512 S2000x11x1 S16x2000x11x512 :=
  gather_S16x2000x512_S2000x11x1_S16x2000x11x512_03_1_n_n_1_2_161512

/-- Result entry (b, r, c, d) of the gather is the operand at (b, row, d), where row is the start index at
    (r, c, 0) read as a signed integer and clamped into [0, 1999]. -/
theorem gather_apply {α : Type} (x : S16x2000x512.Idx → α) (idx : IVec S2000x11x1 32)
    (b : Fin 16) (r : Fin 2000) (c : Fin 11) (d : Fin 512) :
    Host.gather gather_S16x2000x512_S2000x11x1_S16x2000x11x512_03_1_n_n_1_2_161512 x idx (ix4 b r c d)
      = x (ix3 b ⟨min (idx (ix3 r c (0 : Fin 1))).toInt.toNat 1999, by omega⟩ d) := by
  unfold Host.gather
  refine congrArg x (funext fun a => Fin.ext ?_)
  match a with
  | ⟨0, _⟩ =>
    show gd.start (ix4 b r c d) idx 0 + gd.batchCoord (ix4 b r c d) 0 + gd.offCoord (ix4 b r c d) 0 = b.val
    rw [GatherDims.batchCoord_eq_zero gd (ix4 b r c d) 0 List.not_mem_nil]
    unfold GatherDims.start
    rw [dif_neg (show ¬ (0 : Fin 3) ∈ gd.startIndexMap from (by decide : ¬ (0 : Fin 3) ∈ ([1] : List (Fin 3))))]
    unfold GatherDims.offCoord
    rw [dif_pos ((GatherDims.mem_sKept gd 0).mpr
      ⟨(show ¬ (0 : Fin 3) ∈ ([1] : List (Fin 3)) by decide), List.not_mem_nil⟩)]
    simp only [Nat.zero_add]
    rfl
  | ⟨1, _⟩ =>
    show gd.start (ix4 b r c d) idx 1 + gd.batchCoord (ix4 b r c d) 1 + gd.offCoord (ix4 b r c d) 1
      = min (idx (ix3 r c (0 : Fin 1))).toInt.toNat 1999
    rw [GatherDims.batchCoord_eq_zero gd (ix4 b r c d) 1 List.not_mem_nil,
      GatherDims.offCoord_eq_zero gd (ix4 b r c d) 1
        (fun h => ((GatherDims.mem_sKept gd 1).mp h).1 (List.mem_singleton.mpr rfl))]
    simp only [Nat.add_zero]
    unfold GatherDims.start
    rw [dif_pos (show (1 : Fin 3) ∈ gd.startIndexMap from List.mem_singleton.mpr rfl)]
    have hsi : gd.siIdx (ix4 b r c d) ⟨List.idxOf (1 : Fin 3) gd.startIndexMap,
        List.idxOf_lt_length_iff.2 (List.mem_singleton.mpr rfl)⟩ = ix3 r c (0 : Fin 1) := by
      funext e; refine Fin.ext ?_
      match e with
      | ⟨0, _⟩ => rfl
      | ⟨1, _⟩ => rfl
      | ⟨2, _⟩ => rfl
    rw [hsi]
    rfl
  | ⟨2, _⟩ =>
    show gd.start (ix4 b r c d) idx 2 + gd.batchCoord (ix4 b r c d) 2 + gd.offCoord (ix4 b r c d) 2 = d.val
    rw [GatherDims.batchCoord_eq_zero gd (ix4 b r c d) 2 List.not_mem_nil]
    unfold GatherDims.start
    rw [dif_neg (show ¬ (2 : Fin 3) ∈ gd.startIndexMap from (by decide : ¬ (2 : Fin 3) ∈ ([1] : List (Fin 3))))]
    unfold GatherDims.offCoord
    rw [dif_pos ((GatherDims.mem_sKept gd 2).mpr
      ⟨(show ¬ (2 : Fin 3) ∈ ([1] : List (Fin 3)) by decide), List.not_mem_nil⟩)]
    simp only [Nat.zero_add]
    rfl

/-! ## (3) The result, entry by entry -/

/-- Flattened position k of the reshaped rows is channel k / 512, feature k % 512, of the same batch and frame. -/
theorem idx17 (jb : Fin 16) (jr : Fin 2000) (jo : Fin 41) (k : Fin 5632) :
    idx_main_v17 (lidx_main_v18 (ix3 jb jr jo) k) = ix4 jb jr (WindowedLinear.chan k) (WindowedLinear.lane k) := by
  have hb : jb.val < 16 := jb.isLt
  have hr : jr.val < 2000 := jr.isLt
  have hk : k.val < 5632 := k.isLt
  funext a; refine Fin.ext ?_
  match a with
  | ⟨0, _⟩ => show ((jb.val * 2000 + jr.val) * 5632 + k.val) / 11264000 = jb.val; omega
  | ⟨1, _⟩ => show ((jb.val * 2000 + jr.val) * 5632 + k.val) / 5632 % 2000 = jr.val; omega
  | ⟨2, _⟩ => show ((jb.val * 2000 + jr.val) * 5632 + k.val) / 512 % 11 = k.val / 512; omega
  | ⟨3, _⟩ => show ((jb.val * 2000 + jr.val) * 5632 + k.val) % 512 = k.val % 512; omega

/-- The weights are read at (o, k). -/
theorem ridx18 (jb : Fin 16) (jr : Fin 2000) (jo : Fin 41) (k : Fin 5632) :
    ridx_main_v18 (ix3 jb jr jo) k = ix2 jo k := by
  funext a
  match a with
  | ⟨0, _⟩ => rfl
  | ⟨1, _⟩ => rfl

/-- The bias is read at o. -/
theorem idx1920 (jb : Fin 16) (jr : Fin 2000) (jo : Fin 41) :
    idx_main_v19 (idx_main_v20 (ix3 jb jr jo)) = ix1 jo := by
  funext a
  match a with
  | ⟨0, _⟩ => rfl

/-- The reshaped rows at (b, r, k): the input at batch b, frame min (r + 5 - k / 512) 1999, feature k % 512. -/
theorem v17_apply (x0 : (⟨S16x2000x512, .f32⟩ : BufTy).Contents (Elt Ideal)) (jb : Fin 16) (jr : Fin 2000) (jo : Fin 41)
    (k : Fin 5632) :
    val_main_v17 (F := Ideal) x0 (lidx_main_v18 (ix3 jb jr jo) k)
      = x0 (ix3 jb (WindowedLinear.srcRow jr (WindowedLinear.chan k)) (WindowedLinear.lane k)) := by
  rw [val_main_v17_apply, idx17]
  unfold val_main_v16
  rw [gather_apply]
  have hrow : (⟨min (val_main_v15 (F := Ideal) (ix3 jr (WindowedLinear.chan k) (0 : Fin 1))).toInt.toNat 1999, by omega⟩ : Fin 2000)
      = WindowedLinear.srcRow jr (WindowedLinear.chan k) := by
    apply Fin.ext
    show min (val_main_v15 (F := Ideal) (ix3 jr (WindowedLinear.chan k) (0 : Fin 1))).toInt.toNat 1999
      = min (jr.val + 5 - (WindowedLinear.chan k).val) 1999
    rw [row_toNat]; omega
  rw [hrow]

/-- The reference program's result is the windowed linear layer. -/
theorem ref_eq (x0 : (⟨S16x2000x512, .f32⟩ : BufTy).Contents (Elt Ideal)) (x1 : (⟨S41x5632, .f32⟩ : BufTy).Contents (Elt Ideal))
    (x2 : (⟨S41, .f32⟩ : BufTy).Contents (Elt Ideal)) :
    val_main_v21 (F := Ideal) x0 x1 x2 = WindowedLinear.G x0 x1 x2 := by
  funext i
  obtain ⟨jb, jr, jo, rfl⟩ : ∃ (a : Fin 16) (b : Fin 2000) (c : Fin 41), i = ix3 a b c := ⟨i 0, i 1, i 2, eq_ix3 i⟩
  rw [WindowedLinear.G_apply, val_main_v21_apply, val_main_v18_apply, val_main_v20_apply, val_main_v19_apply, idx1920]
  show (∑ k : Fin 5632, val_main_v17 (F := Ideal) x0 (lidx_main_v18 (ix3 jb jr jo) k) * x1 (ridx_main_v18 (ix3 jb jr jo) k))
      + x2 (ix1 jo) = _
  refine congrArg (· + x2 (ix1 jo)) (Finset.sum_congr rfl fun k _ => ?_)
  rw [v17_apply, ridx18]

end Cert.ReferenceIdeal.RefValue

end
-- ==== Proof.lean ====
/-
  The kernel computes the windowed linear layer of the specification.

  The kernel lays each batch's 2000 frames of 512 features into an edge-replicated buffer of 2010 rows, multiplies it
  once by the weights packed as eleven lane-groups of 128 (each channel's 41 output columns padded with zeros), adds up
  the eleven row-shifted, lane-aligned blocks of the product, adds the padded bias, and the program slices the 41 real
  output columns. The reference gathers, for every output frame, the eleven clamped neighbour frames, lays them side
  by side and contracts the 5632 features against the weights, then adds the bias. Over the extended reals both are
  `WindowedLinear.G`: row `10 - c + r` of the padded buffer is frame `clamp (r + 5 - c)`, the padded columns and the
  zero accumulator contribute nothing to the 41 real columns, and the sum over `k = c * 512 + d` is the sum over `c` of
  the sums over `d` — regrouping a finite sum in a commutative monoid, which needs no finiteness of the inputs.

  The three frames: both kernel programs by the body's run at one grid point under the pipeline's launch theorem
  (`Body.frame`, one proof at any float instance, read at the word level and at the ideal level); the reference by its
  run with the result dropped. The idealization rewrote nothing, so `preserves` is trivial.
-/
import proofs.«122783_j28260884808343_2_alg».proof.Defs
import proofs.«122783_j28260884808343_2_alg».proof.Proof.Gen.Kernel
import proofs.«122783_j28260884808343_2_alg».proof.Proof.Gen.KernelIdeal
import proofs.«122783_j28260884808343_2_alg».proof.Proof.Gen.ReferenceIdeal
import proofs.«122783_j28260884808343_2_alg».proof.Proof.Gen.ReferenceIdeal.Run
import proofs.«122783_j28260884808343_2_alg».proof.Proof.Gen.ReferenceIdeal.Read
import proofs.«122783_j28260884808343_2_alg».proof.Proof.Gen.Pre_finite_inputs
import proofs.«122783_j28260884808343_2_alg».proof.Proof.FrameRun
import proofs.«122783_j28260884808343_2_alg».proof.Proof.FrameRunBits
import proofs.«122783_j28260884808343_2_alg».proof.Proof.KernelValue
import proofs.«122783_j28260884808343_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the result array at `G` of the
    arguments: the kernel by its run read through the output blocks and the host slice, the reference by its run read
    operation by operation. -/
theorem algebraic : Cert.algebraic_KernelIdeal_ReferenceIdeal := by
  intro m ρ m' ρ' _ hagree
  refine ⟨fun c => WindowedLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
